-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000 : Shape := ⟨1, ![5000]⟩
abbrev S5000000 : Shape := ⟨1, ![5000000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel
  bcast_S_S5000000 : S_.BroadcastsInDim S5000000 (![] : Fin 0 → Fin S5000000.rank)
  reducesTo_S5000000_S_d0 : S5000000.ReducesTo [0] S_

variable [Facts]

def fn_part1 {F : FTy → Type} [FloatOps F] (main_arg3 : IVec S5000000 32) (main_v15 : IVec S_ 1) : IVec S_ 1 :=
  let main_c_6 : IVec S_ 32 := constantI S_ 32 16#32
  let main_v16 : IVec S5000000 32 := broadcastInDim S5000000 ![] bcast_S_S5000000 main_c_6
  let main_v17 : IVec S5000000 1 := cmpi .slt main_arg3 main_v16
  let main_c_7 : IVec S_ 1 := constantI S_ 1 1#1
  let main_v18 : IVec S_ 1 := (fun x v => Host.reduce IntOp.andi x v reducesTo_S5000000_S_d0 h_S_) main_v17 main_c_7
  let main_v19 : IVec S_ 1 := andi main_v15 main_v18
  main_v19

def fn {F : FTy → Type} [FloatOps F] (main_arg0 : FVec F S5000 .f32) (main_arg1 : IVec S5000000 32) (main_arg2 : IVec S5000000 32) (main_arg3 : IVec S5000000 32) : IVec S_ 1 :=
  let main_v0 : FVec F S5000 .f32 := Host.absf main_arg0
  let main_cst : FVec F S_ .f32 := constant S_ .f32 0x7F800000#32
  let main_v1 : FVec F S5000 .f32 := broadcastInDim S5000 ![] bcast_S_S5000 main_cst
  let main_v2 : IVec S5000 1 := cmpf .olt main_v0 main_v1
  let main_c : IVec S_ 1 := constantI S_ 1 1#1
  let main_v3 : IVec S_ 1 := (fun x v => Host.reduce IntOp.andi x v reducesTo_S5000_S_d0 h_S_) main_v2 main_c
  let main_c_0 : IVec S_ 32 := constantI S_ 32 0#32
  let main_v4 : IVec S5000000 32 := broadcastInDim S5000000 ![] bcast_S_S5000000 main_c_0
  let main_v5 : IVec S5000000 1 := cmpi .sge main_arg1 main_v4
  let main_c_1 : IVec S_ 1 := constantI S_ 1 1#1
  let main_v6 : IVec S_ 1 := (fun x v => Host.reduce IntOp.andi x v reducesTo_S5000000_S_d0 h_S_) main_v5 main_c_1
  let main_v7 : IVec S_ 1 := andi main_v3 main_v6
  let main_c_2 : IVec S_ 32 := constantI S_ 32 500000#32
  let main_v8 : IVec S5000000 32 := broadcastInDim S5000000 ![] bcast_S_S5000000 main_c_2
  let main_v9 : IVec S5000000 1 := cmpi .slt main_arg1 main_v8
  let main_c_3 : IVec S_ 1 := constantI S_ 1 1#1
  let main_v10 : IVec S_ 1 := (fun x v => Host.reduce IntOp.andi x v reducesTo_S5000000_S_d0 h_S_) main_v9 main_c_3
  let main_v11 : IVec S_ 1 := andi main_v7 main_v10
  let main_c_4 : IVec S_ 32 := constantI S_ 32 0#32
  let main_v12 : IVec S5000000 32 := broadcastInDim S5000000 ![] bcast_S_S5000000 main_c_4
  let main_v13 : IVec S5000000 1 := cmpi .sge main_arg3 main_v12
  let main_c_5 : IVec S_ 1 := constantI S_ 1 1#1
  let main_v14 : IVec S_ 1 := (fun x v => Host.reduce IntOp.andi x v reducesTo_S5000000_S_d0 h_S_) main_v13 main_c_5
  let main_v15 : IVec S_ 1 := andi main_v11 main_v14
  fn_part1 (F := F) main_arg3 main_v15
-- ==== Kernel.lean ====
abbrev S5000 : Shape := ⟨1, ![5000]⟩
abbrev S5000000 : Shape := ⟨1, ![5000000]⟩
abbrev S_ : Shape := ⟨0, ![]⟩
abbrev S5000000x1 : Shape := ⟨2, ![5000000, 1]⟩
abbrev S500000 : Shape := ⟨1, ![500000]⟩
abbrev S8000000 : Shape := ⟨1, ![8000000]⟩
abbrev S500000x16 : Shape := ⟨2, ![500000, 16]⟩
abbrev S503808x16 : Shape := ⟨2, ![503808, 16]⟩
abbrev S503808 : Shape := ⟨1, ![503808]⟩
abbrev S4096x16 : Shape := ⟨2, ![4096, 16]⟩
abbrev S4096 : Shape := ⟨1, ![4096]⟩
abbrev S4096x1 : Shape := ⟨2, ![4096, 1]⟩

abbrev nBuf : Space → Nat
  | .hbm => 72
  | .vmem => 8
  | .smem => 0
  | _ => 0

abbrev bufTy : (tb : Table) → Fin (tcTables nBuf tb) → BufTy
  | .hbm, ⟨0, _⟩ => ⟨S5000, .f32⟩
  | .hbm, ⟨1, _⟩ => ⟨S5000000, .i32⟩
  | .hbm, ⟨2, _⟩ => ⟨S5000000, .i32⟩
  | .hbm, ⟨3, _⟩ => ⟨S5000000, .i32⟩
  | .hbm, ⟨4, _⟩ => ⟨S5000, .f32⟩
  | .hbm, ⟨5, _⟩ => ⟨S5000, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S_, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S_, .f32⟩
  | .hbm, ⟨19, _⟩ => ⟨S5000, .f32⟩
  | .hbm, ⟨20, _⟩ => ⟨S5000, .f32⟩
  | .hbm, ⟨21, _⟩ => ⟨S_, .f32⟩
  | .hbm, ⟨22, _⟩ => ⟨S5000, .f32⟩
  | .hbm, ⟨23, _⟩ => ⟨S5000, .f32⟩
  | .hbm, ⟨24, _⟩ => ⟨S5000, .f32⟩
  | .hbm, ⟨25, _⟩ => ⟨S_, .f32⟩
  | .hbm, ⟨26, _⟩ => ⟨S5000, .f32⟩
  | .hbm, ⟨27, _⟩ => ⟨S5000, .f32⟩
  | .hbm, ⟨28, _⟩ => ⟨S5000, .f32⟩
  | .hbm, ⟨29, _⟩ => ⟨S5000, .f32⟩
  | .hbm, ⟨30, _⟩ => ⟨S5000, .f32⟩
  | .hbm, ⟨31, _⟩ => ⟨S_, .i32⟩
  | .hbm, ⟨32, _⟩ => ⟨S5000000, .i32⟩
  | .hbm, ⟨33, _⟩ => ⟨S5000000, .i1⟩
  | .hbm, ⟨34, _⟩ => ⟨S_, .i32⟩
  | .hbm, ⟨35, _⟩ => ⟨S5000000, .i32⟩
  | .hbm, ⟨36, _⟩ => ⟨S5000000, .i32⟩
  | .hbm, ⟨37, _⟩ => ⟨S5000000, .i32⟩
  | .hbm, ⟨38, _⟩ => ⟨S5000000x1, .i32⟩
  | .hbm, ⟨39, _⟩ => ⟨S5000000, .f32⟩
  | .hbm, ⟨40, _⟩ => ⟨S_, .i32⟩
  | .hbm, ⟨41, _⟩ => ⟨S5000000, .i32⟩
  | .hbm, ⟨42, _⟩ => ⟨S5000000, .i1⟩
  | .hbm, ⟨43, _⟩ => ⟨S_, .i32⟩
  | .hbm, ⟨44, _⟩ => ⟨S5000000, .i32⟩
  | .hbm, ⟨45, _⟩ => ⟨S5000000, .i32⟩
  | .hbm, ⟨46, _⟩ => ⟨S5000000, .i32⟩
  | .hbm, ⟨47, _⟩ => ⟨S5000000x1, .i32⟩
  | .hbm, ⟨48, _⟩ => ⟨S5000000, .f32⟩
  | .hbm, ⟨49, _⟩ => ⟨S_, .i32⟩
  | .hbm, ⟨50, _⟩ => ⟨S5000000, .i32⟩
  | .hbm, ⟨51, _⟩ => ⟨S5000000, .i32⟩
  | .hbm, ⟨52, _⟩ => ⟨S5000000, .i32⟩
  | .hbm, ⟨53, _⟩ => ⟨S_, .f32⟩
  | .hbm, ⟨54, _⟩ => ⟨S500000, .f32⟩
  | .hbm, ⟨55, _⟩ => ⟨S5000000x1, .i32⟩
  | .hbm, ⟨56, _⟩ => ⟨S500000, .f32⟩
  | .hbm, ⟨57, _⟩ => ⟨S_, .f32⟩
  | .hbm, ⟨58, _⟩ => ⟨S8000000, .f32⟩
  | .hbm, ⟨59, _⟩ => ⟨S5000000x1, .i32⟩
  | .hbm, ⟨60, _⟩ => ⟨S8000000, .f32⟩
  | .hbm, ⟨61, _⟩ => ⟨S500000x16, .f32⟩
  | .hbm, ⟨62, _⟩ => ⟨S_, .i32⟩
  | .hbm, ⟨63, _⟩ => ⟨S_, .f32⟩
  | .hbm, ⟨64, _⟩ => ⟨S503808x16, .f32⟩
  | .hbm, ⟨65, _⟩ => ⟨S_, .i32⟩
  | .hbm, ⟨66, _⟩ => ⟨S_, .f32⟩
  | .hbm, ⟨67, _⟩ => ⟨S503808, .f32⟩
  | .hbm, ⟨68, _⟩ => ⟨S503808x16, .f32⟩
  | .hbm, ⟨69, _⟩ => ⟨S503808, .f32⟩
  | .hbm, ⟨70, _⟩ => ⟨S500000x16, .f32⟩
  | .hbm, ⟨71, _⟩ => ⟨S500000, .f32⟩
  | .local _ .vmem, ⟨0, _⟩ => ⟨S4096x16, .f32⟩
  | .local _ .vmem, ⟨1, _⟩ => ⟨S4096x16, .f32⟩
  | .local _ .vmem, ⟨2, _⟩ => ⟨S4096, .f32⟩
  | .local _ .vmem, ⟨3, _⟩ => ⟨S4096, .f32⟩
  | .local _ .vmem, ⟨4, _⟩ => ⟨S4096x16, .f32⟩
  | .local _ .vmem, ⟨5, _⟩ => ⟨S4096x16, .f32⟩
  | .local _ .vmem, ⟨6, _⟩ => ⟨S4096, .f32⟩
  | .local _ .vmem, ⟨7, _⟩ => ⟨S4096, .f32⟩
  | _, _ => ⟨S5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_call0_v0 : Ref sig .tc := ⟨.hbm, 63, rfl⟩
abbrev main_v45 : Ref sig .tc := ⟨.hbm, 64, rfl⟩
abbrev main_c_12 : Ref sig .tc := ⟨.hbm, 65, rfl⟩
abbrev main_call1_v0 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S5000 : S_.BroadcastsInDim S5000 (![] : Fin 0 → Fin S5000.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S500000 : S_.BroadcastsInDim S500000 (![] : Fin 0 → Fin S500000.rank)
  bcast_S_S8000000 : S_.BroadcastsInDim S8000000 (![] : Fin 0 → Fin S8000000.rank)
  shapeCasts_S8000000_S500000x16 : S8000000.ShapeCasts S500000x16
  pads_S500000x16_S503808x16_038080_000 : S500000x16.Pads (![0, 0] : Fin 2 → Nat) ![3808, 0] ![0, 0] S503808x16
  h_S_ : 0 < S_.numel
  pads_S500000_S503808_038080 : S500000.Pads (![0] : Fin 1 → Nat) ![3808] ![0] S503808
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096_S4096_0 : ∀ a, (![0] : Fin 1 → Nat) a + S4096.size a ≤ S4096.size a
  h_S4096 : 0 < S4096.numel
  shapeCasts_S4096_S4096 : S4096.ShapeCasts S4096
  reduces_S4096x16_S4096 : S4096x16.Reduces [1] S4096
  shapeCasts_S4096_S4096x1 : S4096.ShapeCasts S4096x1
  broadcasts_S4096x1_S4096x16 : S4096x1.Broadcasts S4096x16
  slices_S503808x16_S500000x16_0_0 : S503808x16.Slices ![0, 0] S500000x16
  slices_S503808_S500000_0 : S503808.Slices ![0] S500000
  gather_S5000_S5000000x1_S5000000_n_0_n_n_0_1_1_wf : GatherDims.WF S5000 S5000000x1 S5000000 [] [0] [] [0] [] 1 ![1]
  scatter_S500000_S5000000x1_S5000000_n_0_0_1_wf : ScatterDims.WF S500000 S5000000x1 S5000000 [] [0] [0] 1
  scatter_S8000000_S5000000x1_S5000000_n_0_0_1_wf : ScatterDims.WF S8000000 S5000000x1 S5000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S503808x16.size a
  hwx0_0 : ∀ i : grid0.Coords, EltTy.bits .f32 = 32 ∨ (Rect.block (s := S503808x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S503808.size a
  hwx0_1 : ∀ i : grid0.Coords, EltTy.bits .f32 = 32 ∨ (Rect.block (s := S503808) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S503808x16.size a
  hwx0_2 : ∀ i : grid0.Coords, EltTy.bits .f32 = 32 ∨ (Rect.block (s := S503808x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S503808.size a
  hwx0_3 : ∀ i : grid0.Coords, EltTy.bits .f32 = 32 ∨ (Rect.block (s := S503808) S4096.size (cc0_transform_3 i) (hinb0_3 i)).WholeWords (EltTy.packing .f32)

variable [Facts₀]

def gather_S5000_S5000000x1_S5000000_n_0_n_n_0_1_1 : GatherDims S5000 S5000000x1 S5000000 where
  offsetDims := []
  collapsedSliceDims := [0]
  operandBatchingDims := []
  startIndicesBatchingDims := []
  startIndexMap := [0]
  indexVectorDim := 1
  sliceSizes := ![1]
  wf := gather_S5000_S5000000x1_S5000000_n_0_n_n_0_1_1_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def scatter_S8000000_S5000000x1_S5000000_n_0_0_1 : ScatterDims S8000000 S5000000x1 S5000000 where
  updateWindowDims := []
  insertedWindowDims := [0]
  scatterDimsToOperandDims := [0]
  indexVectorDim := 1
  wf := scatter_S8000000_S5000000x1_S5000000_n_0_0_1_wf

abbrev win0_0 : Pipeline.Window sig grid0 :=
  Pipeline.Window.ofSpec (Memref.whole main_v45) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47_0) S4096x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47_1) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S5000 : Shape := ⟨1, ![5000]⟩
abbrev S5000000 : Shape := ⟨1, ![5000000]⟩
abbrev S_ : Shape := ⟨0, ![]⟩
abbrev S16x16 : Shape := ⟨2, ![16, 16]⟩
abbrev S5000x1x1 : Shape := ⟨3, ![5000, 1, 1]⟩
abbrev S1x16x16 : Shape := ⟨3, ![1, 16, 16]⟩
abbrev S5000x16x16 : Shape := ⟨3, ![5000, 16, 16]⟩
abbrev S5000x16 : Shape := ⟨2, ![5000, 16]⟩
abbrev S5000x16x1 : Shape := ⟨3, ![5000, 16, 1]⟩
abbrev S5000000x1 : Shape := ⟨2, ![5000000, 1]⟩
abbrev S5000000x2 : Shape := ⟨2, ![5000000, 2]⟩
abbrev S5000000x16 : Shape := ⟨2, ![5000000, 16]⟩
abbrev S500000x16 : Shape := ⟨2, ![500000, 16]⟩
abbrev S500000 : Shape := ⟨1, ![500000]⟩
abbrev S500000x1 : Shape := ⟨2, ![500000, 1]⟩

abbrev nBuf : Space → Nat
  | .hbm => 95
  | .vmem => 0
  | .smem => 0
  | _ => 0

abbrev bufTy : (tb : Table) → Fin (tcTables nBuf tb) → BufTy
  | .hbm, ⟨0, _⟩ => ⟨S5000, .f32⟩
  | .hbm, ⟨1, _⟩ => ⟨S5000000, .i32⟩
  | .hbm, ⟨2, _⟩ => ⟨S5000000, .i32⟩
  | .hbm, ⟨3, _⟩ => ⟨S5000000, .i32⟩
  | .hbm, ⟨4, _⟩ => ⟨S5000, .f32⟩
  | .hbm, ⟨5, _⟩ => ⟨S5000, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S_, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S_, .f32⟩
  | .hbm, ⟨19, _⟩ => ⟨S5000, .f32⟩
  | .hbm, ⟨20, _⟩ => ⟨S5000, .f32⟩
  | .hbm, ⟨21, _⟩ => ⟨S16x16, .i32⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S16x16, .i1⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S5000x1x1, .f32⟩
  | .hbm, ⟨31, _⟩ => ⟨S1x16x16, .f32⟩
  | .hbm, ⟨32, _⟩ => ⟨S5000x16x16, .f32⟩
  | .hbm, ⟨33, _⟩ => ⟨S5000x16x16, .f32⟩
  | .hbm, ⟨34, _⟩ => ⟨S5000x16x16, .f32⟩
  | .hbm, ⟨35, _⟩ => ⟨S5000x1x1, .f32⟩
  | .hbm, ⟨36, _⟩ => ⟨S1x16x16, .f32⟩
  | .hbm, ⟨37, _⟩ => ⟨S5000x16x16, .f32⟩
  | .hbm, ⟨38, _⟩ => ⟨S5000x16x16, .f32⟩
  | .hbm, ⟨39, _⟩ => ⟨S5000x16x16, .f32⟩
  | .hbm, ⟨40, _⟩ => ⟨S5000x16x16, .f32⟩
  | .hbm, ⟨41, _⟩ => ⟨S_, .f32⟩
  | .hbm, ⟨42, _⟩ => ⟨S5000x16x16, .f32⟩
  | .hbm, ⟨43, _⟩ => ⟨S5000x16x16, .f32⟩
  | .hbm, ⟨44, _⟩ => ⟨S_, .f32⟩
  | .hbm, ⟨45, _⟩ => ⟨S5000x16, .f32⟩
  | .hbm, ⟨46, _⟩ => ⟨S5000x16x1, .f32⟩
  | .hbm, ⟨47, _⟩ => ⟨S5000x16x16, .f32⟩
  | .hbm, ⟨48, _⟩ => ⟨S5000x16x16, .f32⟩
  | .hbm, ⟨49, _⟩ => ⟨S5000x16x16, .f32⟩
  | .hbm, ⟨50, _⟩ => ⟨S_, .i32⟩
  | .hbm, ⟨51, _⟩ => ⟨S5000000, .i32⟩
  | .hbm, ⟨52, _⟩ => ⟨S5000000, .i1⟩
  | .hbm, ⟨53, _⟩ => ⟨S_, .i32⟩
  | .hbm, ⟨54, _⟩ => ⟨S5000000, .i32⟩
  | .hbm, ⟨55, _⟩ => ⟨S5000000, .i32⟩
  | .hbm, ⟨56, _⟩ => ⟨S5000000, .i32⟩
  | .hbm, ⟨57, _⟩ => ⟨S_, .i32⟩
  | .hbm, ⟨58, _⟩ => ⟨S5000000, .i32⟩
  | .hbm, ⟨59, _⟩ => ⟨S5000000, .i1⟩
  | .hbm, ⟨60, _⟩ => ⟨S_, .i32⟩
  | .hbm, ⟨61, _⟩ => ⟨S5000000, .i32⟩
  | .hbm, ⟨62, _⟩ => ⟨S5000000, .i32⟩
  | .hbm, ⟨63, _⟩ => ⟨S5000000, .i32⟩
  | .hbm, ⟨64, _⟩ => ⟨S5000000x1, .i32⟩
  | .hbm, ⟨65, _⟩ => ⟨S5000000x1, .i32⟩
  | .hbm, ⟨66, _⟩ => ⟨S5000000x2, .i32⟩
  | .hbm, ⟨67, _⟩ => ⟨S5000000x16, .f32⟩
  | .hbm, ⟨68, _⟩ => ⟨S_, .f32⟩
  | .hbm, ⟨69, _⟩ => ⟨S500000x16, .f32⟩
  | .hbm, ⟨70, _⟩ => ⟨S5000000x1, .i32⟩
  | .hbm, ⟨71, _⟩ => ⟨S500000x16, .f32⟩
  | .hbm, ⟨72, _⟩ => ⟨S_, .f32⟩
  | .hbm, ⟨73, _⟩ => ⟨S500000, .f32⟩
  | .hbm, ⟨74, _⟩ => ⟨S_, .f32⟩
  | .hbm, ⟨75, _⟩ => ⟨S500000, .f32⟩
  | .hbm, ⟨76, _⟩ => ⟨S500000, .f32⟩
  | .hbm, ⟨77, _⟩ => ⟨S500000x1, .f32⟩
  | .hbm, ⟨78, _⟩ => ⟨S500000x16, .f32⟩
  | .hbm, ⟨79, _⟩ => ⟨S500000x16, .f32⟩
  | .hbm, ⟨80, _⟩ => ⟨S500000x16, .f32⟩
  | .hbm, ⟨81, _⟩ => ⟨S_, .f32⟩
  | .hbm, ⟨82, _⟩ => ⟨S500000, .f32⟩
  | .hbm, ⟨83, _⟩ => ⟨S500000x1, .f32⟩
  | .hbm, ⟨84, _⟩ => ⟨S500000x1, .f32⟩
  | .hbm, ⟨85, _⟩ => ⟨S500000x16, .f32⟩
  | .hbm, ⟨86, _⟩ => ⟨S500000x16, .f32⟩
  | .hbm, ⟨87, _⟩ => ⟨S500000x16, .f32⟩
  | .hbm, ⟨88, _⟩ => ⟨S500000x16, .f32⟩
  | .hbm, ⟨89, _⟩ => ⟨S_, .f32⟩
  | .hbm, ⟨90, _⟩ => ⟨S500000, .f32⟩
  | .hbm, ⟨91, _⟩ => ⟨S500000x16, .f32⟩
  | .hbm, ⟨92, _⟩ => ⟨S_, .f32⟩
  | .hbm, ⟨93, _⟩ => ⟨S500000, .f32⟩
  | .hbm, ⟨94, _⟩ => ⟨S500000, .f32⟩
  | _, _ => ⟨S5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_cst : Ref sig .tc := ⟨.hbm, 72, rfl⟩
abbrev main_call0_v0 : Ref sig .tc := ⟨.hbm, 73, rfl⟩
abbrev main_call0_cst_0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_cst_1 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S5000 : S_.BroadcastsInDim S5000 (![] : Fin 0 → Fin S5000.rank)
  bcast_S_S16x16 : S_.BroadcastsInDim S16x16 (![] : Fin 0 → Fin S16x16.rank)
  bcast_S5000_S5000x1x1_0 : S5000.BroadcastsInDim S5000x1x1 (![0] : Fin 1 → Fin S5000x1x1.rank)
  bcast_S16x16_S1x16x16_1_2 : S16x16.BroadcastsInDim S1x16x16 (![1, 2] : Fin 2 → Fin S1x16x16.rank)
  bcast_S5000x1x1_S5000x16x16_0_1_2 : S5000x1x1.BroadcastsInDim S5000x16x16 (![0, 1, 2] : Fin 3 → Fin S5000x16x16.rank)
  bcast_S1x16x16_S5000x16x16_0_1_2 : S1x16x16.BroadcastsInDim S5000x16x16 (![0, 1, 2] : Fin 3 → Fin S5000x16x16.rank)
  bcast_S_S5000x16x16 : S_.BroadcastsInDim S5000x16x16 (![] : Fin 0 → Fin S5000x16x16.rank)
  reducesTo_S5000x16x16_S5000x16_d2 : S5000x16x16.ReducesTo [2] S5000x16
  h_S_ : 0 < S_.numel
  bcast_S5000x16_S5000x16x1_0_1 : S5000x16.BroadcastsInDim S5000x16x1 (![0, 1] : Fin 2 → Fin S5000x16x1.rank)
  bcast_S5000x16x1_S5000x16x16_0_1_2 : S5000x16x1.BroadcastsInDim S5000x16x16 (![0, 1, 2] : Fin 3 → Fin S5000x16x16.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  concatenates_S5000000x1_S5000000x1_S5000000x2_d1 : Shape.Concatenates [S5000000x1, S5000000x1] S5000000x2 1
  bcast_S_S500000x16 : S_.BroadcastsInDim S500000x16 (![] : Fin 0 → Fin S500000x16.rank)
  reducesTo_S500000x16_S500000_d1 : S500000x16.ReducesTo [1] S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  gather_S5000x16x16_S5000000x2_S5000000x16_1_02_n_n_02_1_1161_wf : GatherDims.WF S5000x16x16 S5000000x2 S5000000x16 [1] [0, 2] [] [0, 2] [] 1 ![1, 16, 1]
  scatter_S500000x16_S5000000x1_S5000000x16_1_0_0_1_wf : ScatterDims.WF S500000x16 S5000000x1 S5000000x16 [1] [0] [0] 1

variable [Facts₀]

def gather_S5000x16x16_S5000000x2_S5000000x16_1_02_n_n_02_1_1161 : GatherDims S5000x16x16 S5000000x2 S5000000x16 where
  offsetDims := [1]
  collapsedSliceDims := [0, 2]
  operandBatchingDims := []
  startIndicesBatchingDims := []
  startIndexMap := [0, 2]
  indexVectorDim := 1
  sliceSizes := ![1, 16, 1]
  wf := gather_S5000x16x16_S5000000x2_S5000000x16_1_02_n_n_02_1_1161_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf

class Facts : Prop extends Facts₀ where

variable [Facts]
-- ==== Proof.RefRun.lean ====
/-
  The reference program's run: every weakly fair execution terminates with its two results at the stage functions
  of the argument arrays, and the argument arrays as they were.  The program is a straight line of host operations,
  so the run is the fold of the operations' results over the launch memory.  The line is read in five consecutive
  stretches — the table of log-probabilities, the wrapped index columns, the accumulation over observations, the row-wise log-softmax, and the
  two results — each as a function of the few buffers it reads; composed, they give each result's stage function.
-/
import proofs.«142230_j22256520528420_2_alg».proof.Proof.RefOpsP
import proofs.«142230_j22256520528420_2_alg».proof.Proof.RefReadP

noncomputable section

namespace Cert.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lists run in order are the second list's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a reference's buffer type and back are the contents. -/
theorem ofBuf_toBuf {Val : EltTy → Type} {T : BufTy} (x : TRef sig T) (v : T.Contents Val) : x.ofBuf (x.toBuf v) = v := by
  obtain ⟨r, h, d, s⟩ := x
  subst h
  rfl

/-! ## The line in five stretches -/

/-- Operations 1 … 46: the table of log-probabilities, from the logits alone. -/
abbrev opsA : List (HloOp τ sig (Elt F)) :=
  [ unary main_arg0 main_v0 (Host.negf : (⟨S5000, .f32⟩ : BufTy).Contents (Elt F) → (⟨S5000, .f32⟩ : BufTy).Contents (Elt F)),
    unary main_v0 main_v1 (Host.exp : (⟨S5000, .f32⟩ : BufTy).Contents (Elt F) → (⟨S5000, .f32⟩ : BufTy).Contents (Elt F)),
    nullary main_cst (constant S_ .f32 0x3F800000#32),
    unary main_cst main_v2 (broadcastInDim S5000 ![] bcast_S_S5000 : (⟨S_, .f32⟩ : BufTy).Contents (Elt F) → (⟨S5000, .f32⟩ : BufTy).Contents (Elt F)),
    binary main_v2 main_v1 main_v3 (addf : (⟨S5000, .f32⟩ : BufTy).Contents (Elt F) → (⟨S5000, .f32⟩ : BufTy).Contents (Elt F) → (⟨S5000, .f32⟩ : BufTy).Contents (Elt F)),
    nullary main_cst_0 (constant S_ .f32 0x3F800000#32),
    unary main_cst_0 main_v4 (broadcastInDim S5000 ![] bcast_S_S5000 : (⟨S_, .f32⟩ : BufTy).Contents (Elt F) → (⟨S5000, .f32⟩ : BufTy).Contents (Elt F)),
    binary main_v4 main_v3 main_v5 (Host.divf : (⟨S5000, .f32⟩ : BufTy).Contents (Elt F) → (⟨S5000, .f32⟩ : BufTy).Contents (Elt F) → (⟨S5000, .f32⟩ : BufTy).Contents (Elt F)),
    unary main_arg0 main_v6 (Host.negf : (⟨S5000, .f32⟩ : BufTy).Contents (Elt F) → (⟨S5000, .f32⟩ : BufTy).Contents (Elt F)),
    unary main_v6 main_v7 (Host.negf : (⟨S5000, .f32⟩ : BufTy).Contents (Elt F) → (⟨S5000, .f32⟩ : BufTy).Contents (Elt F)),
    unary main_v7 main_v8 (Host.exp : (⟨S5000, .f32⟩ : BufTy).Contents (Elt F) → (⟨S5000, .f32⟩ : BufTy).Contents (Elt F)),
    nullary main_cst_1 (constant S_ .f32 0x3F800000#32),
    unary main_cst_1 main_v9 (broadcastInDim S5000 ![] bcast_S_S5000 : (⟨S_, .f32⟩ : BufTy).Contents (Elt F) → (⟨S5000, .f32⟩ : BufTy).Contents (Elt F)),
    binary main_v9 main_v8 main_v10 (addf : (⟨S5000, .f32⟩ : BufTy).Contents (Elt F) → (⟨S5000, .f32⟩ : BufTy).Contents (Elt F) → (⟨S5000, .f32⟩ : BufTy).Contents (Elt F)),
    nullary main_cst_2 (constant S_ .f32 0x3F800000#32),
    unary main_cst_2 main_v11 (broadcastInDim S5000 ![] bcast_S_S5000 : (⟨S_, .f32⟩ : BufTy).Contents (Elt F) → (⟨S5000, .f32⟩ : BufTy).Contents (Elt F)),
    binary main_v11 main_v10 main_v12 (Host.divf : (⟨S5000, .f32⟩ : BufTy).Contents (Elt F) → (⟨S5000, .f32⟩ : BufTy).Contents (Elt F) → (⟨S5000, .f32⟩ : BufTy).Contents (Elt F)),
    nullary main_v13 (iotaInDim S16x16 32 0),
    nullary main_v14 (iotaInDim S16x16 32 1),
    nullary main_c (constantI S_ 32 0#32),
    unary main_c main_v15 (broadcastInDim S16x16 ![] bcast_S_S16x16 : (⟨S_, .i32⟩ : BufTy).Contents (Elt F) → (⟨S16x16, .i32⟩ : BufTy).Contents (Elt F)),
    binary main_v13 main_v15 main_v16 (addi : (⟨S16x16, .i32⟩ : BufTy).Contents (Elt F) → (⟨S16x16, .i32⟩ : BufTy).Contents (Elt F) → (⟨S16x16, .i32⟩ : BufTy).Contents (Elt F)),
    binary main_v16 main_v14 main_v17 (cmpi .eq : (⟨S16x16, .i32⟩ : BufTy).Contents (Elt F) → (⟨S16x16, .i32⟩ : BufTy).Contents (Elt F) → (⟨S16x16, .i1⟩ : BufTy).Contents (Elt F)),
    unary main_v17 main_v18 (uitofp .f32 : (⟨S16x16, .i1⟩ : BufTy).Contents (Elt F) → (⟨S16x16, .f32⟩ : BufTy).Contents (Elt F)),
    nullary main_cst_3 (constant S_ .f32 0x3D800000#32),
    unary main_cst_3 main_v19 (broadcastInDim S16x16 ![] bcast_S_S16x16 : (⟨S_, .f32⟩ : BufTy).Contents (Elt F) → (⟨S16x16, .f32⟩ : BufTy).Contents (Elt F)),
    unary main_v5 main_v20 (broadcastInDim S5000x1x1 ![0] bcast_S5000_S5000x1x1_0 : (⟨S5000, .f32⟩ : BufTy).Contents (Elt F) → (⟨S5000x1x1, .f32⟩ : BufTy).Contents (Elt F)),
    unary main_v18 main_v21 (broadcastInDim S1x16x16 ![1, 2] bcast_S16x16_S1x16x16_1_2 : (⟨S16x16, .f32⟩ : BufTy).Contents (Elt F) → (⟨S1x16x16, .f32⟩ : BufTy).Contents (Elt F)),
    unary main_v20 main_v22 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v21 main_v23 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v22 main_v23 main_v24 (mulf : (⟨S5000x16x16, .f32⟩ : BufTy).Contents (Elt F) → (⟨S5000x16x16, .f32⟩ : BufTy).Contents (Elt F) → (⟨S5000x16x16, .f32⟩ : BufTy).Contents (Elt F)),
    unary main_v12 main_v25 (broadcastInDim S5000x1x1 ![0] bcast_S5000_S5000x1x1_0 : (⟨S5000, .f32⟩ : BufTy).Contents (Elt F) → (⟨S5000x1x1, .f32⟩ : BufTy).Contents (Elt F)),
    unary main_v19 main_v26 (broadcastInDim S1x16x16 ![1, 2] bcast_S16x16_S1x16x16_1_2 : (⟨S16x16, .f32⟩ : BufTy).Contents (Elt F) → (⟨S1x16x16, .f32⟩ : BufTy).Contents (Elt F)),
    unary main_v25 main_v27 (broadcastInDim S5000x16x16 ![0, 1, 2] bcast_S5000x1x1_S5000x16x16_0_1_2 : (⟨S5000x1x1, .f32⟩ : BufTy).Contents (Elt F) → (⟨S5000x16x16, .f32⟩ : BufTy).Contents (Elt F)),
    unary main_v26 main_v28 (broadcastInDim S5000x16x16 ![0, 1, 2] bcast_S1x16x16_S5000x16x16_0_1_2 : (⟨S1x16x16, .f32⟩ : BufTy).Contents (Elt F) → (⟨S5000x16x16, .f32⟩ : BufTy).Contents (Elt F)),
    binary main_v27 main_v28 main_v29 (mulf : (⟨S5000x16x16, .f32⟩ : BufTy).Contents (Elt F) → (⟨S5000x16x16, .f32⟩ : BufTy).Contents (Elt F) → (⟨S5000x16x16, .f32⟩ : BufTy).Contents (Elt F)),
    binary main_v24 main_v29 main_v30 (addf : (⟨S5000x16x16, .f32⟩ : BufTy).Contents (Elt F) → (⟨S5000x16x16, .f32⟩ : BufTy).Contents (Elt F) → (⟨S5000x16x16, .f32⟩ : BufTy).Contents (Elt F)),
    nullary main_cst_4 (constant S_ .f32 0x40000000#32),
    unary main_cst_4 main_v31 (broadcastInDim S5000x16x16 ![] bcast_S_S5000x16x16 : (⟨S_, .f32⟩ : BufTy).Contents (Elt F) → (⟨S5000x16x16, .f32⟩ : BufTy).Contents (Elt F)),
    binary main_v30 main_v31 main_v32 (Host.divf : (⟨S5000x16x16, .f32⟩ : BufTy).Contents (Elt F) → (⟨S5000x16x16, .f32⟩ : BufTy).Contents (Elt F) → (⟨S5000x16x16, .f32⟩ : BufTy).Contents (Elt F)),
    nullary main_cst_5 (constant S_ .f32 0x00000000#32),
    binary main_v32 main_cst_5 main_v33 ((fun x v => Host.reduceAdd x v reducesTo_S5000x16x16_S5000x16_d2 h_S_) : (⟨S5000x16x16, .f32⟩ : BufTy).Contents (Elt F) → (⟨S_, .f32⟩ : BufTy).Contents (Elt F) → (⟨S5000x16, .f32⟩ : BufTy).Contents (Elt F)),
    unary main_v33 main_v34 (broadcastInDim S5000x16x1 ![0, 1] bcast_S5000x16_S5000x16x1_0_1 : (⟨S5000x16, .f32⟩ : BufTy).Contents (Elt F) → (⟨S5000x16x1, .f32⟩ : BufTy).Contents (Elt F)),
    unary main_v34 main_v35 (broadcastInDim S5000x16x16 ![0, 1, 2] bcast_S5000x16x1_S5000x16x16_0_1_2 : (⟨S5000x16x1, .f32⟩ : BufTy).Contents (Elt F) → (⟨S5000x16x16, .f32⟩ : BufTy).Contents (Elt F)),
    binary main_v32 main_v35 main_v36 (Host.divf : (⟨S5000x16x16, .f32⟩ : BufTy).Contents (Elt F) → (⟨S5000x16x16, .f32⟩ : BufTy).Contents (Elt F) → (⟨S5000x16x16, .f32⟩ : BufTy).Contents (Elt F)),
    unary main_v36 main_v37 (Host.log : (⟨S5000x16x16, .f32⟩ : BufTy).Contents (Elt F) → (⟨S5000x16x16, .f32⟩ : BufTy).Contents (Elt F)) ]

/-- Operations 47 … 62: the two wrapped index columns. -/
abbrev opsB1 : List (HloOp τ sig (Elt F)) :=
  [ nullary main_c_6 (constantI S_ 32 0#32),
    unary main_c_6 main_v38 (broadcastInDim S5000000 ![] bcast_S_S5000000 : (⟨S_, .i32⟩ : BufTy).Contents (Elt F) → (⟨S5000000, .i32⟩ : BufTy).Contents (Elt F)),
    binary main_arg2 main_v38 main_v39 (cmpi .slt : (⟨S5000000, .i32⟩ : BufTy).Contents (Elt F) → (⟨S5000000, .i32⟩ : BufTy).Contents (Elt F) → (⟨S5000000, .i1⟩ : BufTy).Contents (Elt F)),
    nullary main_c_7 (constantI S_ 32 5000#32),
    unary main_c_7 main_v40 (broadcastInDim S5000000 ![] bcast_S_S5000000 : (⟨S_, .i32⟩ : BufTy).Contents (Elt F) → (⟨S5000000, .i32⟩ : BufTy).Contents (Elt F)),
    binary main_arg2 main_v40 main_v41 (addi : (⟨S5000000, .i32⟩ : BufTy).Contents (Elt F) → (⟨S5000000, .i32⟩ : BufTy).Contents (Elt F) → (⟨S5000000, .i32⟩ : BufTy).Contents (Elt F)),
    ternary main_v39 main_v41 main_arg2 main_v42 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    nullary main_c_8 (constantI S_ 32 0#32),
    unary main_c_8 main_v43 (broadcastInDim S5000000 ![] bcast_S_S5000000 : (⟨S_, .i32⟩ : BufTy).Contents (Elt F) → (⟨S5000000, .i32⟩ : BufTy).Contents (Elt F)),
    binary main_arg3 main_v43 main_v44 (cmpi .slt : (⟨S5000000, .i32⟩ : BufTy).Contents (Elt F) → (⟨S5000000, .i32⟩ : BufTy).Contents (Elt F) → (⟨S5000000, .i1⟩ : BufTy).Contents (Elt F)),
    nullary main_c_9 (constantI S_ 32 16#32),
    unary main_c_9 main_v45 (broadcastInDim S5000000 ![] bcast_S_S5000000 : (⟨S_, .i32⟩ : BufTy).Contents (Elt F) → (⟨S5000000, .i32⟩ : BufTy).Contents (Elt F)),
    binary main_arg3 main_v45 main_v46 (addi : (⟨S5000000, .i32⟩ : BufTy).Contents (Elt F) → (⟨S5000000, .i32⟩ : BufTy).Contents (Elt F) → (⟨S5000000, .i32⟩ : BufTy).Contents (Elt F)),
    ternary main_v44 main_v46 main_arg3 main_v47 (select : (⟨S5000000, .i1⟩ : BufTy).Contents (Elt F) → (⟨S5000000, .i32⟩ : BufTy).Contents (Elt F) → (⟨S5000000, .i32⟩ : BufTy).Contents (Elt F) → (⟨S5000000, .i32⟩ : BufTy).Contents (Elt F)),
    unary main_v42 main_v48 (broadcastInDim S5000000x1 ![0] bcast_S5000000_S5000000x1_0 : (⟨S5000000, .i32⟩ : BufTy).Contents (Elt F) → (⟨S5000000x1, .i32⟩ : BufTy).Contents (Elt F)),
    unary main_v47 main_v49 (broadcastInDim S5000000x1 ![0] bcast_S5000000_S5000000x1_0 : (⟨S5000000, .i32⟩ : BufTy).Contents (Elt F) → (⟨S5000000x1, .i32⟩ : BufTy).Contents (Elt F)) ]

/-- Operations 63 … 68: the gathered rows and their accumulation task by task. -/
abbrev opsB2 : List (HloOp τ sig (Elt F)) :=
  [ binary main_v48 main_v49 main_v50 ((fun a b => concatenate S5000000x2 1 [⟨S5000000x1, a⟩, ⟨S5000000x1, b⟩] concatenates_S5000000x1_S5000000x1_S5000000x2_d1) : (⟨S5000000x1, .i32⟩ : BufTy).Contents (Elt F) → (⟨S5000000x1, .i32⟩ : BufTy).Contents (Elt F) → (⟨S5000000x2, .i32⟩ : BufTy).Contents (Elt F)),
    binary main_v37 main_v50 main_v51 ((fun x i => Host.gather gather_S5000x16x16_S5000000x2_S5000000x16_1_02_n_n_02_1_1161 x i) : (⟨S5000x16x16, .f32⟩ : BufTy).Contents (Elt F) → (⟨S5000000x2, .i32⟩ : BufTy).Contents (Elt F) → (⟨S5000000x16, .f32⟩ : BufTy).Contents (Elt F)),
    nullary main_cst_10 (constant S_ .f32 0x00000000#32),
    unary main_cst_10 main_v52 (broadcastInDim S500000x16 ![] bcast_S_S500000x16 : (⟨S_, .f32⟩ : BufTy).Contents (Elt F) → (⟨S500000x16, .f32⟩ : BufTy).Contents (Elt F)),
    unary main_arg1 main_v53 (broadcastInDim S5000000x1 ![0] bcast_S5000000_S5000000x1_0 : (⟨S5000000, .i32⟩ : BufTy).Contents (Elt F) → (⟨S5000000x1, .i32⟩ : BufTy).Contents (Elt F)),
    ternary main_v52 main_v53 main_v51 main_v54 ((fun x i u => Host.scatterAdd scatter_S500000x16_S5000000x1_S5000000x16_1_0_0_1 x i u) : (⟨S500000x16, .f32⟩ : BufTy).Contents (Elt F) → (⟨S5000000x1, .i32⟩ : BufTy).Contents (Elt F) → (⟨S5000000x16, .f32⟩ : BufTy).Contents (Elt F) → (⟨S500000x16, .f32⟩ : BufTy).Contents (Elt F)) ]

/-- Operations 69 … 83: the row-wise log-softmax. -/
abbrev opsC : List (HloOp τ sig (Elt F)) :=
  [ TRef.nullary (TRef.of (T := ⟨S_, .f32⟩) main_call0_cst) (constant S_ .f32 0xFF800000#32),
    TRef.binary (TRef.of (T := ⟨S500000x16, .f32⟩) main_v54) (TRef.of (T := ⟨S_, .f32⟩) main_call0_cst) (TRef.of (T := ⟨S500000, .f32⟩) main_call0_v0) (fun x v => Host.reduce FloatOps.maximumf x v reducesTo_S500000x16_S500000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S500000, .f32⟩) main_call0_v1) (broadcastInDim S500000 ![] bcast_S_S500000),
    TRef.binary (TRef.of (T := ⟨S500000, .f32⟩) main_call0_v1) (TRef.of (T := ⟨S500000, .f32⟩) main_call0_v0) (TRef.of (T := ⟨S500000, .f32⟩) main_call0_v2) maximumf,
    TRef.unary (TRef.of (T := ⟨S500000, .f32⟩) main_call0_v2) (TRef.of (T := ⟨S500000x1, .f32⟩) main_call0_v3) (broadcastInDim S500000x1 ![0] bcast_S500000_S500000x1_0),
    TRef.unary (TRef.of (T := ⟨S500000x1, .f32⟩) main_call0_v3) (TRef.of (T := ⟨S500000x16, .f32⟩) main_call0_v4) (broadcastInDim S500000x16 ![0, 1] bcast_S500000x1_S500000x16_0_1),
    TRef.binary (TRef.of (T := ⟨S500000x16, .f32⟩) main_v54) (TRef.of (T := ⟨S500000x16, .f32⟩) main_call0_v4) (TRef.of (T := ⟨S500000x16, .f32⟩) main_call0_v5) subf,
    TRef.unary (TRef.of (T := ⟨S500000x16, .f32⟩) main_call0_v5) (TRef.of (T := ⟨S500000x16, .f32⟩) main_call0_v6) Host.exp,
    TRef.nullary (TRef.of (T := ⟨S_, .f32⟩) main_call0_cst_1) (constant S_ .f32 0x00000000#32),
    TRef.binary (TRef.of (T := ⟨S500000x16, .f32⟩) main_call0_v6) (TRef.of (T := ⟨S_, .f32⟩) main_call0_cst_1) (TRef.of (T := ⟨S500000, .f32⟩) main_call0_v7) (fun x v => Host.reduceAdd x v reducesTo_S500000x16_S500000_d1 h_S_),
    TRef.unary (TRef.of (T := ⟨S500000, .f32⟩) main_call0_v7) (TRef.of (T := ⟨S500000x1, .f32⟩) main_call0_v8) (broadcastInDim S500000x1 ![0] bcast_S500000_S500000x1_0),
    TRef.unary (TRef.of (T := ⟨S500000x1, .f32⟩) main_call0_v8) (TRef.of (T := ⟨S500000x1, .f32⟩) main_call0_v9) Host.log,
    TRef.unary (TRef.of (T := ⟨S500000x1, .f32⟩) main_call0_v9) (TRef.of (T := ⟨S500000x16, .f32⟩) main_call0_v10) (broadcastInDim S500000x16 ![0, 1] bcast_S500000x1_S500000x16_0_1),
    TRef.binary (TRef.of (T := ⟨S500000x16, .f32⟩) main_call0_v5) (TRef.of (T := ⟨S500000x16, .f32⟩) main_call0_v10) (TRef.of (T := ⟨S500000x16, .f32⟩) main_v55) subf ]

/-- Operations 84 … 91: the posterior and the variational value. -/
abbrev opsD : List (HloOp τ sig (Elt F)) :=
  [ unary main_v55 main_v56 (Host.exp : (⟨S500000x16, .f32⟩ : BufTy).Contents (Elt F) → (⟨S500000x16, .f32⟩ : BufTy).Contents (Elt F)),
    binary main_v56 main_v54 main_v57 (mulf : (⟨S500000x16, .f32⟩ : BufTy).Contents (Elt F) → (⟨S500000x16, .f32⟩ : BufTy).Contents (Elt F) → (⟨S500000x16, .f32⟩ : BufTy).Contents (Elt F)),
    nullary main_cst_11 (constant S_ .f32 0x00000000#32),
    binary main_v57 main_cst_11 main_v58 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v56 main_v55 main_v59 (mulf : (⟨S500000x16, .f32⟩ : BufTy).Contents (Elt F) → (⟨S500000x16, .f32⟩ : BufTy).Contents (Elt F) → (⟨S500000x16, .f32⟩ : BufTy).Contents (Elt F)),
    nullary main_cst_12 (constant S_ .f32 0x00000000#32),
    binary main_v59 main_cst_12 main_v60 ((fun x v => Host.reduceAdd x v reducesTo_S500000x16_S500000_d1 h_S_) : (⟨S500000x16, .f32⟩ : BufTy).Contents (Elt F) → (⟨S_, .f32⟩ : BufTy).Contents (Elt F) → (⟨S500000, .f32⟩ : BufTy).Contents (Elt F)),
    binary main_v58 main_v60 main_v61 (subf : (⟨S500000, .f32⟩ : BufTy).Contents (Elt F) → (⟨S500000, .f32⟩ : BufTy).Contents (Elt F) → (⟨S500000, .f32⟩ : BufTy).Contents (Elt F)) ]

set_option maxRecDepth 8192 in
theorem ops_split : (ops (F := F)) = opsA ++ (opsB1 ++ (opsB2 ++ (opsC ++ opsD))) := rfl

/-! ## Each stretch over arbitrary contents of the buffers it reads -/

attribute [local irreducible] Host.reduce Host.reduceAdd Host.gather Host.scatterAdd concatenate in
set_option maxRecDepth 100000 in
set_option maxHeartbeats 4000000 in
/-- The first stretch leaves the table of log-probabilities. -/
theorem stageA (V : Valuation τ sig (Elt F)) (x0 : (⟨S5000, .f32⟩ : BufTy).Contents (Elt F))
    (h0 : V (Proc.devRef .tc main_arg0) = x0) :
    after (opsA (F := F)) V (Proc.devRef .tc main_v37) = val_main_v37 (F := F) x0 := by
  simp only [opsA]
  after_results_simp
  rw [h0]
  simp only [val_main_v37, val_main_v36, val_main_v35, val_main_v34, val_main_v33, val_main_cst_5, val_main_v32, val_main_v31, val_main_cst_4, val_main_v30, val_main_v29, val_main_v28, val_main_v27, val_main_v26, val_main_v25, val_main_v24, val_main_v23, val_main_v22, val_main_v21, val_main_v20, val_main_v19, val_main_cst_3, val_main_v18, val_main_v17, val_main_v16, val_main_v15, val_main_c, val_main_v14, val_main_v13, val_main_v12, val_main_v11, val_main_cst_2, val_main_v10, val_main_v9, val_main_cst_1, val_main_v8, val_main_v7, val_main_v6, val_main_v5, val_main_v4, val_main_cst_0, val_main_v3, val_main_v2, val_main_cst, val_main_v1, val_main_v0]
  try rfl

/-- The first stretch writes no argument. -/
theorem stageA_arg1 (V : Valuation τ sig (Elt F)) :
    after (opsA (F := F)) V (Proc.devRef .tc main_arg1) = V (Proc.devRef .tc main_arg1) := by
  simp only [opsA]
  after_results_simp
theorem stageA_arg2 (V : Valuation τ sig (Elt F)) :
    after (opsA (F := F)) V (Proc.devRef .tc main_arg2) = V (Proc.devRef .tc main_arg2) := by
  simp only [opsA]
  after_results_simp
theorem stageA_arg3 (V : Valuation τ sig (Elt F)) :
    after (opsA (F := F)) V (Proc.devRef .tc main_arg3) = V (Proc.devRef .tc main_arg3) := by
  simp only [opsA]
  after_results_simp

attribute [local irreducible] Host.reduce Host.reduceAdd Host.gather Host.scatterAdd concatenate in
set_option maxRecDepth 100000 in
set_option maxHeartbeats 4000000 in
/-- The second stretch leaves the two wrapped index columns. -/
theorem stageB1_v48 (W : Valuation τ sig (Elt F)) (x2 : (⟨S5000000, .i32⟩ : BufTy).Contents (Elt F))
    (h2 : W (Proc.devRef .tc main_arg2) = x2) :
    after (opsB1 (F := F)) W (Proc.devRef .tc main_v48) = val_main_v48 (F := F) x2 := by
  simp only [opsB1]
  after_results_simp
  rw [h2]
  simp only [val_main_v49, val_main_v48, val_main_v47, val_main_v46, val_main_v45, val_main_c_9, val_main_v44, val_main_v43, val_main_c_8, val_main_v42, val_main_v41, val_main_v40, val_main_c_7, val_main_v39, val_main_v38, val_main_c_6]
  try rfl
attribute [local irreducible] Host.reduce Host.reduceAdd Host.gather Host.scatterAdd concatenate in
set_option maxRecDepth 100000 in
set_option maxHeartbeats 4000000 in
theorem stageB1_v49 (W : Valuation τ sig (Elt F)) (x3 : (⟨S5000000, .i32⟩ : BufTy).Contents (Elt F))
    (h3 : W (Proc.devRef .tc main_arg3) = x3) :
    after (opsB1 (F := F)) W (Proc.devRef .tc main_v49) = val_main_v49 (F := F) x3 := by
  simp only [opsB1]
  after_results_simp
  rw [h3]
  simp only [val_main_v49, val_main_v48, val_main_v47, val_main_v46, val_main_v45, val_main_c_9, val_main_v44, val_main_v43, val_main_c_8, val_main_v42, val_main_v41, val_main_v40, val_main_c_7, val_main_v39, val_main_v38, val_main_c_6]
  try rfl
/-- The second stretch writes neither the table nor the task indices. -/
theorem stageB1_v37 (W : Valuation τ sig (Elt F)) :
    after (opsB1 (F := F)) W (Proc.devRef .tc main_v37) = W (Proc.devRef .tc main_v37) := by
  simp only [opsB1]
  after_results_simp
theorem stageB1_arg1 (W : Valuation τ sig (Elt F)) :
    after (opsB1 (F := F)) W (Proc.devRef .tc main_arg1) = W (Proc.devRef .tc main_arg1) := by
  simp only [opsB1]
  after_results_simp

attribute [local irreducible] Host.reduce Host.reduceAdd Host.gather Host.scatterAdd concatenate in
set_option maxRecDepth 100000 in
set_option maxHeartbeats 4000000 in
/-- The third stretch leaves the accumulated rows. -/
theorem stageB2 (W : Valuation τ sig (Elt F)) (x0 : (⟨S5000, .f32⟩ : BufTy).Contents (Elt F)) (x1 x2 x3 : (⟨S5000000, .i32⟩ : BufTy).Contents (Elt F))
    (h37 : W (Proc.devRef .tc main_v37) = val_main_v37 (F := F) x0) (h1 : W (Proc.devRef .tc main_arg1) = x1)
    (h48 : W (Proc.devRef .tc main_v48) = val_main_v48 (F := F) x2)
    (h49 : W (Proc.devRef .tc main_v49) = val_main_v49 (F := F) x3) :
    after (opsB2 (F := F)) W (Proc.devRef .tc main_v54) = val_main_v54 (F := F) x0 x1 x2 x3 := by
  simp only [opsB2]
  after_results_simp
  rw [h37, h1, h48, h49]
  simp only [val_main_v54, val_main_v53, val_main_v52, val_main_cst_10, val_main_v51, val_main_v50]
  try rfl

attribute [local irreducible] Host.reduce Host.reduceAdd Host.gather Host.scatterAdd concatenate in
set_option maxRecDepth 100000 in
set_option maxHeartbeats 4000000 in
/-- The fourth stretch leaves the log-softmax of the accumulated rows. -/
theorem stageC (W : Valuation τ sig (Elt F)) (x0 : (⟨S5000, .f32⟩ : BufTy).Contents (Elt F)) (x1 x2 x3 : (⟨S5000000, .i32⟩ : BufTy).Contents (Elt F))
    (h54 : W (Proc.devRef .tc main_v54) = val_main_v54 (F := F) x0 x1 x2 x3) :
    after (opsC (F := F)) W (Proc.devRef .tc main_v55) = val_main_v55 (F := F) x0 x1 x2 x3 := by
  simp only [opsC]
  after_results_simp
  rw [h54]
  simp only [val_main_v55, val_main_call0_v10, val_main_call0_v9, val_main_call0_v8, val_main_call0_v7, val_main_call0_cst_1, val_main_call0_v6, val_main_call0_v5, val_main_call0_v4, val_main_call0_v3, val_main_call0_v2, val_main_call0_v1, val_main_call0_cst_0, val_main_call0_v0, val_main_call0_cst]
  generalize val_main_v54 (F := F) x0 x1 x2 x3 = c54
  simp only [ofBuf_toBuf]
  try rfl

/-- The fourth stretch does not write the accumulated rows. -/
theorem stageC_v54 (W : Valuation τ sig (Elt F)) :
    after (opsC (F := F)) W (Proc.devRef .tc main_v54) = W (Proc.devRef .tc main_v54) := by
  simp only [opsC]
  after_results_simp

attribute [local irreducible] Host.reduce Host.reduceAdd Host.gather Host.scatterAdd concatenate in
set_option maxRecDepth 100000 in
set_option maxHeartbeats 4000000 in
/-- The last stretch leaves the posterior. -/
theorem stageD_v56 (W : Valuation τ sig (Elt F)) (x0 : (⟨S5000, .f32⟩ : BufTy).Contents (Elt F)) (x1 x2 x3 : (⟨S5000000, .i32⟩ : BufTy).Contents (Elt F))
    (h55 : W (Proc.devRef .tc main_v55) = val_main_v55 (F := F) x0 x1 x2 x3) :
    after (opsD (F := F)) W (Proc.devRef .tc main_v56) = val_main_v56 (F := F) x0 x1 x2 x3 := by
  simp only [opsD]
  after_results_simp
  rw [h55]
  simp only [val_main_v56]

attribute [local irreducible] Host.reduce Host.reduceAdd Host.gather Host.scatterAdd concatenate in
set_option maxRecDepth 100000 in
set_option maxHeartbeats 4000000 in
/-- The last stretch leaves the variational value. -/
theorem stageD_v61 (W : Valuation τ sig (Elt F)) (x0 : (⟨S5000, .f32⟩ : BufTy).Contents (Elt F)) (x1 x2 x3 : (⟨S5000000, .i32⟩ : BufTy).Contents (Elt F))
    (h54 : W (Proc.devRef .tc main_v54) = val_main_v54 (F := F) x0 x1 x2 x3)
    (h55 : W (Proc.devRef .tc main_v55) = val_main_v55 (F := F) x0 x1 x2 x3) :
    after (opsD (F := F)) W (Proc.devRef .tc main_v61) = val_main_v61 (F := F) x0 x1 x2 x3 := by
  simp only [opsD]
  after_results_simp
  rw [h54, h55]
  simp only [val_main_v61, val_main_v60, val_main_cst_12, val_main_v59, val_main_v58, val_main_cst_11, val_main_v57, val_main_v56]

/-! ## The whole line -/

/-- The accumulated rows and their log-softmax after the first four stretches. -/
theorem after_ABC (V : Valuation τ sig (Elt F)) (x0 : (⟨S5000, .f32⟩ : BufTy).Contents (Elt F)) (x1 x2 x3 : (⟨S5000000, .i32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3) :
    after (opsC (F := F)) (after (opsB2 (F := F)) (after (opsB1 (F := F)) (after (opsA (F := F)) V))) (Proc.devRef .tc main_v54)
        = val_main_v54 (F := F) x0 x1 x2 x3
      ∧ after (opsC (F := F)) (after (opsB2 (F := F)) (after (opsB1 (F := F)) (after (opsA (F := F)) V))) (Proc.devRef .tc main_v55)
        = val_main_v55 (F := F) x0 x1 x2 x3 := by
  have hB : after (opsB2 (F := F)) (after (opsB1 (F := F)) (after (opsA (F := F)) V)) (Proc.devRef .tc main_v54)
      = val_main_v54 (F := F) x0 x1 x2 x3 :=
    stageB2 _ x0 x1 x2 x3 ((stageB1_v37 _).trans (stageA V x0 h0)) ((stageB1_arg1 _).trans ((stageA_arg1 V).trans h1))
      (stageB1_v48 _ x2 ((stageA_arg2 V).trans h2)) (stageB1_v49 _ x3 ((stageA_arg3 V).trans h3))
  exact ⟨(stageC_v54 _).trans hB, stageC _ x0 x1 x2 x3 hB⟩

/-- The fold of the whole line at the first result's buffer is the first result's stage. -/
theorem after_v56 (V : Valuation τ sig (Elt F)) (x0 : (⟨S5000, .f32⟩ : BufTy).Contents (Elt F)) (x1 x2 x3 : (⟨S5000000, .i32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3) :
    after (ops (F := F)) V (Proc.devRef .tc main_v56) = val_main_v56 (F := F) x0 x1 x2 x3 := by
  rw [ops_split, after_append, after_append, after_append, after_append]
  exact stageD_v56 _ x0 x1 x2 x3 (after_ABC V x0 x1 x2 x3 h0 h1 h2 h3).2

/-- The fold of the whole line at the second result's buffer is the second result's stage. -/
theorem after_v61 (V : Valuation τ sig (Elt F)) (x0 : (⟨S5000, .f32⟩ : BufTy).Contents (Elt F)) (x1 x2 x3 : (⟨S5000000, .i32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3) :
    after (ops (F := F)) V (Proc.devRef .tc main_v61) = val_main_v61 (F := F) x0 x1 x2 x3 := by
  rw [ops_split, after_append, after_append, after_append, after_append]
  exact stageD_v61 _ x0 x1 x2 x3 (after_ABC V x0 x1 x2 x3 h0 h1 h2 h3).1 (after_ABC V x0 x1 x2 x3 h0 h1 h2 h3).2

set_option maxRecDepth 100000 in
set_option maxHeartbeats 4000000 in
/-- No operation of the line writes an argument. -/
theorem after_arg0 (V : Valuation τ sig (Elt F)) :
    after (ops (F := F)) V (Proc.devRef .tc main_arg0) = V (Proc.devRef .tc main_arg0) := by
  simp only [ops]
  after_results_simp
set_option maxRecDepth 100000 in
set_option maxHeartbeats 4000000 in
theorem after_arg1 (V : Valuation τ sig (Elt F)) :
    after (ops (F := F)) V (Proc.devRef .tc main_arg1) = V (Proc.devRef .tc main_arg1) := by
  simp only [ops]
  after_results_simp
set_option maxRecDepth 100000 in
set_option maxHeartbeats 4000000 in
theorem after_arg2 (V : Valuation τ sig (Elt F)) :
    after (ops (F := F)) V (Proc.devRef .tc main_arg2) = V (Proc.devRef .tc main_arg2) := by
  simp only [ops]
  after_results_simp
set_option maxRecDepth 100000 in
set_option maxHeartbeats 4000000 in
theorem after_arg3 (V : Valuation τ sig (Elt F)) :
    after (ops (F := F)) V (Proc.devRef .tc main_arg3) = V (Proc.devRef .tc main_arg3) := by
  simp only [ops]
  after_results_simp

/-- Every weakly fair execution of the reference program terminates with its two results at their stage functions of
    the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_v56).trans (after_v56 (launchContents m c) _ _ _ _ rfl rfl rfl rfl),
       (h c main_v61).trans (after_v61 (launchContents m c) _ _ _ _ rfl rfl rfl rfl),
       (h c main_arg0).trans (after_arg0 (launchContents m c)),
       (h c main_arg1).trans (after_arg1 (launchContents m c)),
       (h c main_arg2).trans (after_arg2 (launchContents m c)),
       (h c main_arg3).trans (after_arg3 (launchContents m c))⟩)
    (run_seq scopedRefs_eq scopedSems_eq defs main (fun _ => ops) main_eq (fun _ => ops_sub) m ρ)

end Cert.RefRun

end
-- ==== Proof.Spec.lean ====
/-
  The mathematics both programs compute, stated once over plain index types.

  A worker j has a signal-to-noise logit x_j.  With σ = 1/(1+e^{-x}) and ν = 1/(1+e^{x}) the worker's
  confusion matrix is θ[k,k'] = (σ·[k=k'] + ν/16)/2, whose rows sum to (σ+ν)/2, and the log of the
  row-normalised entry is  log(σ·[k=k'] + ν/16)  because σ + ν = 1:  `base` off the diagonal and
  `base + diff` on it.  Observation n names a task ii[n], a worker jj[n] and a label y[n]; task i's
  class-conditional log-likelihood is the sum over its observations of that worker's row read at the
  observed label (`cll`), which splits into a class-independent part (`Bsum`) and the part carried
  by the observations whose label is k (`Dsum`).  The posterior over classes is the softmax of the
  row, and the variational value is  Σ_k q_k·cll_k − Σ_k q_k·log q_k.
-/
import Idealize.ShloMosaic.PureOps.Ideal
import Idealize.ShloMosaic.Lib.ValueIdx

noncomputable section

open scoped BigOperators

namespace Cert.Spec

open Idealize.ShloMosaic Idealize.ShloMosaic.ValueIdx

/-- The shapes of the argument arrays. -/
abbrev SW : Shape := ⟨1, ![5000]⟩
abbrev SN : Shape := ⟨1, ![5000000]⟩

/-! ## One worker's numbers -/

/-- σ(x) = 1/(1 + e^{-x}), as both programs spell it. -/
def sig (x : EReal) : EReal := Ideal.div 1 (1 + Ideal.exp (-x))
/-- σ(-x) = 1/(1 + e^{x}), spelt with the double negation both programs carry. -/
def nsig (x : EReal) : EReal := Ideal.div 1 (1 + Ideal.exp (- -x))
/-- log(ν/16): the log-probability of a wrong label. -/
def base (x : EReal) : EReal := Ideal.log (Ideal.div (nsig x) ((16 : ℝ) : EReal))
/-- log(σ + ν/16) − log(ν/16): what the right label adds. -/
def diff (x : EReal) : EReal := Ideal.log (sig x + Ideal.div (nsig x) ((16 : ℝ) : EReal)) - base x

/-- The confusion matrix entry (k, k') of a worker with logit x: (σ·[k=k'] + ν·(1/16)) / 2. -/
def theta (x : EReal) (k k' : Fin 16) : EReal :=
  Ideal.div (sig x * (if k = k' then (1 : EReal) else 0) + nsig x * ((1 / 16 : ℝ) : EReal)) ((2 : ℝ) : EReal)
/-- The log of the entry divided by its row sum. -/
def logTheta (x : EReal) (k k' : Fin 16) : EReal :=
  Ideal.log (Ideal.div (theta x k k') (∑ k'' : Fin 16, theta x k k''))

/-! ## Indices the programs read -/

/-- A possibly negative index wrapped once by the axis length, as indexing lowers it. -/
def wrapIdx (sz v : BitVec 32) : BitVec 32 :=
  Scalar.select (IntOp.cmpi .slt v 0#32) (IntOp.addi v sz) v

/-- The worker row observation n reads: its wrapped index read signed and clamped into [0, 4999]. -/
def cj (jj : SN.Idx → BitVec 32) (n : Fin 5000000) : Fin 5000 :=
  ⟨min (wrapIdx 5000#32 (jj (ix1 n))).toInt.toNat 4999, by omega⟩
/-- The label column observation n reads: its wrapped index read signed and clamped into [0, 15]. -/
def cy (y : SN.Idx → BitVec 32) (n : Fin 5000000) : Fin 16 :=
  ⟨min (wrapIdx 16#32 (y (ix1 n))).toInt.toNat 15, by omega⟩

/-! ## The sums over observations -/

/-- Task i's log-likelihood of class k: over the observations of task i, the worker's row k at the observed label. -/
def cll (x : SW.Idx → EReal) (ii jj y : SN.Idx → BitVec 32) (i : Fin 500000) (k : Fin 16) : EReal :=
  ∑ n ∈ Finset.univ.filter (fun n : Fin 5000000 => (ii (ix1 n)).toInt = (i.val : Int)),
    logTheta (x (ix1 (cj jj n))) k (cy y n)

/-- The class-independent part: over the observations of task i, the worker's `base`. -/
def Bsum (x : SW.Idx → EReal) (ii jj : SN.Idx → BitVec 32) (i : Fin 500000) : EReal :=
  ∑ n ∈ Finset.univ.filter (fun n : Fin 5000000 => (ii (ix1 n)).toInt = (i.val : Int)),
    base (x (ix1 (cj jj n)))

/-- The class-dependent part: over the observations whose flat index 16·ii + y is 16·i + k, the worker's `diff`. -/
def Dsum (x : SW.Idx → EReal) (ii jj y : SN.Idx → BitVec 32) (i : Fin 500000) (k : Fin 16) : EReal :=
  ∑ n ∈ Finset.univ.filter (fun n : Fin 5000000 =>
      (IntOp.addi (IntOp.muli (ii (ix1 n)) 16#32) (y (ix1 n))).toInt = ((16 * i.val + k.val : Nat) : Int)),
    diff (x (ix1 (cj jj n)))

/-! ## One task's row -/

/-- The greatest of a row's sixteen entries. -/
def rowMax (c : Fin 16 → EReal) : EReal := Finset.univ.sup c
/-- log-softmax: (c_k − max) − log Σ e^{c_k' − max}. -/
def lsm (c : Fin 16 → EReal) (k : Fin 16) : EReal :=
  (c k - rowMax c) - Ideal.log (∑ k' : Fin 16, Ideal.exp (c k' - rowMax c))
/-- The posterior over classes. -/
def qz (c : Fin 16 → EReal) (k : Fin 16) : EReal := Ideal.exp (lsm c k)
/-- Σ q·c − Σ q·log q, as the reference writes it. -/
def vqRef (c : Fin 16 → EReal) : EReal := (∑ k : Fin 16, qz c k * c k) - (∑ k : Fin 16, qz c k * lsm c k)
/-- b + Σ q·(d − log q), as the kernel writes it. -/
def vqKer (b : EReal) (d : Fin 16 → EReal) : EReal := b + ∑ k : Fin 16, qz d k * (d k - lsm d k)

end Cert.Spec

end
-- ==== Proof.Consts.lean ====
/-
  The float constants the two programs spell, as the extended reals their bit patterns denote:
  0, 1, 2, 16, 1/16 and −∞.  Stated once, so that no other module unfolds a pattern.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of 16.0 denotes 16. -/
theorem ofBits_sixteen : Ideal.ofBits .f32 0x41800000#32 = ((16 : ℝ) : EReal) := by
  simp [Ideal.ofBits, Ideal.ieee, -EReal.coe_mul]; norm_num

/-- The pattern of 0.0625 denotes 1/16. -/
theorem ofBits_sixteenth : Ideal.ofBits .f32 0x3D800000#32 = ((1 / 16 : ℝ) : EReal) := by
  simp [Ideal.ofBits, Ideal.ieee, -EReal.coe_mul]; norm_num

/-- The pattern of −∞ denotes the bottom element. -/
theorem ofBits_neg_inf : Ideal.ofBits .f32 0xFF800000#32 = (⊥ : EReal) := by
  simp [Ideal.ofBits, Ideal.ieee]

end Cert.Consts

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«142230_j22256520528420_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerRow.lean ====
/-
  The kernel body's arithmetic on one block, read at a row.

  A block is 4096 rows of sixteen entries d (and one entry b per row).  The body takes each row's maximum M, the
  shifted row d − M, Z = Σ e^{d − M}, the log-softmax (d − M) − log Z, the posterior q = e^{log-softmax}, and
  b + Σ q·(d − log-softmax).  Read at row p these are the row functions of the specification applied to row p.
-/
import proofs.«142230_j22256520528420_2_alg».proof.Proof.Gen.KernelIdeal.Skeleton
import proofs.«142230_j22256520528420_2_alg».proof.Proof.Spec
import proofs.«142230_j22256520528420_2_alg».proof.Proof.Consts
import proofs.«142230_j22256520528420_2_alg».proof.Proof.LibLaneMax
import proofs.«142230_j22256520528420_2_alg».proof.Proof.LibColumnCast
import proofs.«142230_j22256520528420_2_alg».proof.Proof.LibColumnBroadcast
import Idealize.ShloMosaic.Lib.Pipeline.Value

noncomputable section

open scoped BigOperators

namespace Cert.KerRow

open Cert.KernelIdeal Cert.KernelIdeal.Gen Idealize.ShloMosaic Idealize.ShloMosaic.ValueIdx

/-- Row p of a block, as a function of the class. -/
def row (x0 : Vec Ideal S4096x16 .f32) (p : Fin 4096) : Fin 16 → EReal := fun c => x0 (ix2 p c)

/-- A fold of `max` from the bottom element is the supremum. -/
theorem fold_max_bot (f : Fin 16 → EReal) : (Finset.univ : Finset (Fin 16)).fold max (⊥ : EReal) f = Finset.univ.sup f := by
  unfold Finset.sup
  rfl

/-- A vector made a column and repeated along the rows reads, at (p, q), the vector's entry p. -/
theorem column_apply (v : FVec Ideal S4096 .f32) (p : Fin 4096) (q : Fin 16) :
    broadcastTo S4096x16 (shapeCast S4096x1 v shapeCasts_S4096_S4096x1) broadcasts_S4096x1_S4096x16 (ix2 p q) = v (ix1 p) :=
  (broadcastTo_a1_ab_apply (a := 4096) (b := 16) _ broadcasts_S4096x1_S4096x16 p q).trans
    (shapeCast_a_a1_apply (a := 4096) v shapeCasts_S4096_S4096x1 p 0)

/-- The block as loaded. -/
theorem pay1_eq (x0 : Vec Ideal S4096x16 .f32) : k0_pay1 (F := Ideal) x0 = x0 := by
  unfold k0_pay1
  exact shapeCast_self _ _

/-- The row maximum, read at row p. -/
theorem max_apply (x0 : Vec Ideal S4096x16 .f32) (p : Fin 4096) :
    multiReduction (F := Ideal) .maximumf [1] S4096 x0 0xFF800000#32 reduces_S4096x16_S4096 (.inl rfl) rfl (ix1 p)
      = Spec.rowMax (row x0 p) := by
  refine (multiReduction_maximumf_rows_apply (a := 4096) (b := 16) (φ := .f32) x0 0xFF800000#32 reduces_S4096x16_S4096 (.inl rfl) rfl p).trans ?_
  rw [Ideal.ofBits_def, Cert.Consts.ofBits_neg_inf]
  exact fold_max_bot _

/-- The block with each row's maximum taken off. -/
def shifted (x0 : Vec Ideal S4096x16 .f32) : FVec Ideal S4096x16 .f32 :=
  subf x0 (broadcastTo S4096x16 (shapeCast S4096x1
    (multiReduction (F := Ideal) .maximumf [1] S4096 x0 0xFF800000#32 reduces_S4096x16_S4096 (.inl rfl) rfl) shapeCasts_S4096_S4096x1)
    broadcasts_S4096x1_S4096x16)

theorem shifted_apply (x0 : Vec Ideal S4096x16 .f32) (p : Fin 4096) (q : Fin 16) :
    shifted x0 (ix2 p q) = x0 (ix2 p q) - Spec.rowMax (row x0 p) := by
  unfold shifted
  rw [subf_apply, column_apply, max_apply]

/-- The column of log Z, Z the row sum of the exponentials of the shifted block. -/
def logZ (x0 : Vec Ideal S4096x16 .f32) : FVec Ideal S4096x1 .f32 :=
  log (shapeCast S4096x1
    (multiReduction (F := Ideal) .add [1] S4096 (exp (shifted x0)) 0x00000000#32 reduces_S4096x16_S4096 (.inl rfl) rfl) shapeCasts_S4096_S4096x1)

theorem logZ_apply (x0 : Vec Ideal S4096x16 .f32) (p : Fin 4096) :
    logZ x0 (ix2 p (0 : Fin 1)) = Ideal.log (∑ c : Fin 16, Ideal.exp (x0 (ix2 p c) - Spec.rowMax (row x0 p))) := by
  unfold logZ
  show Ideal.log (shapeCast S4096x1 _ shapeCasts_S4096_S4096x1 (ix2 p (0 : Fin 1))) = _
  rw [shapeCast_a_a1_apply (a := 4096) _ shapeCasts_S4096_S4096x1 p 0,
    multiReduction_add_rows_apply (a := 4096) (b := 16) (φ := .f32) _ 0x00000000#32 reduces_S4096x16_S4096 (.inl rfl) rfl p]
  refine congrArg Ideal.log (Finset.sum_congr rfl fun c _ => ?_)
  show Ideal.exp (shifted x0 (ix2 p c)) = _
  rw [shifted_apply]

/-- The log-softmax payload is the shifted block less the column of log Z. -/
theorem pay2_eq (x0 : Vec Ideal S4096x16 .f32) :
    k0_pay2 (F := Ideal) x0 = subf (shifted x0) (broadcastTo S4096x16 (logZ x0) broadcasts_S4096x1_S4096x16) := by
  unfold k0_pay2 shifted logZ
  simp only [pay1_eq]
  rfl

/-- The log-softmax payload at (p, q). -/
theorem pay2_apply (x0 : Vec Ideal S4096x16 .f32) (p : Fin 4096) (q : Fin 16) :
    k0_pay2 (F := Ideal) x0 (ix2 p q) = Spec.lsm (row x0 p) q := by
  rw [pay2_eq, subf_apply, shifted_apply,
    broadcastTo_a1_ab_apply (a := 4096) (b := 16) (logZ x0) broadcasts_S4096x1_S4096x16 p q, logZ_apply]
  rfl

/-- The stored posterior at (p, q). -/
theorem pay3_apply (x0 : Vec Ideal S4096x16 .f32) (p : Fin 4096) (q : Fin 16) :
    k0_pay3 (F := Ideal) x0 (ix2 p q) = Spec.qz (row x0 p) q := by
  unfold k0_pay3
  show Ideal.exp (k0_pay2 (F := Ideal) x0 (ix2 p q)) = _
  rw [pay2_apply]
  rfl

/-- The stored value at row p. -/
theorem pay4_apply (x0 : Vec Ideal S4096x16 .f32) (x1 : Vec Ideal S4096 .f32) (p : Fin 4096) :
    k0_pay4 (F := Ideal) x0 x1 (ix1 p) = Spec.vqKer (x1 (ix1 p)) (row x0 p) := by
  unfold k0_pay4
  simp only [pay1_eq]
  rw [addf_apply, shapeCast_self,
    multiReduction_add_rows_apply (a := 4096) (b := 16) (φ := .f32) _ 0x00000000#32 reduces_S4096x16_S4096 (.inl rfl) rfl p]
  unfold Spec.vqKer
  refine congrArg (x1 (ix1 p) + ·) (Finset.sum_congr rfl fun c _ => ?_)
  rw [mulf_apply, subf_apply, pay3_apply, pay2_apply]
  rfl

end Cert.KerRow

end
-- ==== Proof.KerArrays.lean ====
/-
  From blocks to arrays: what the kernel program's two results hold.

  The grid has 123 points; point t reads rows 4096·t … 4096·t + 4095 of the padded table D (503808 × 16) and of the
  padded vector B, and writes the same rows of the posterior array and of the value vector.  A row of a block depends
  only on the same row of D and B, so each output array is ONE row-wise function of D and B; the blocks tile the
  arrays (row r belongs to point r / 4096).  The program then keeps the first 500000 rows of each.
-/
import proofs.«142230_j22256520528420_2_alg».proof.Proof.Gen.KernelIdeal.Frame
import proofs.«142230_j22256520528420_2_alg».proof.Proof.KerRow
import Idealize.ShloMosaic.Lib.Pipeline.Value
import Idealize.ShloMosaic.Lib.StableHlo.Run

set_option maxRecDepth 16384

noncomputable section

open scoped BigOperators

namespace Cert.KerArrays

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Row r of the padded table, as a function of the class. -/
def rowOf (D : S503808x16.Idx → EReal) (r : Fin 503808) : Fin 16 → EReal := fun c => D (ix2 r c)

/-- The posterior array: row by row the softmax of the table's row. -/
def G2 (D : S503808x16.Idx → EReal) : S503808x16.Idx → EReal :=
  fun i => Spec.qz (rowOf D ⟨(i 0).val, (i 0).isLt⟩) ⟨(i 1).val, (i 1).isLt⟩

/-- The value vector: entry by entry b + Σ q·(d − log q) of the table's row. -/
def G3 (D : S503808x16.Idx → EReal) (B : S503808.Idx → EReal) : S503808.Idx → EReal :=
  fun i => Spec.vqKer (B (ix1 ⟨(i 0).val, (i 0).isLt⟩)) (rowOf D ⟨(i 0).val, (i 0).isLt⟩)

/-- The printed index maps, decided over the grid: every window's block row index is the point's number, and the
    column index of the two matrices is 0. -/
theorem idx_facts : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0
    ∧ win0_3.index t (0 : Fin 1) = t.val :=
  (by decide +kernel : ∀ t : Fin grid0.N, _)

set_option maxHeartbeats 1000000 in
/-- What point t writes back to the posterior array is block t of `G2` of the table as the region finds it. -/
theorem flushed2_eq (c : Dev nD) (t : Fin cfg0.N) :
    (dats m 0 c).flushed 2 t = ((cfg0.win 2).blk t).view.read (Elt Ideal) (G2 (V m c main_v45)) := by
  show (cfg0.win 2).cut (grid0.coords t) ((dats m 0 c).after 2 t) = _
  rw [after0_2]
  unfold out0_2
  rw [View.canon_unit_zero hz2]
  simp only [View.ld_unit_zero (S := S4096x16) hz2]
  obtain ⟨e0, e1, e2, e3, e4, e5⟩ := idx_facts t
  refine funext fun (j : S4096x16.Idx) => ?_
  obtain ⟨p, q, rfl⟩ : ∃ (p : Fin 4096) (q : Fin 16), j = ix2 p q := ⟨j 0, j 1, eq_ix2 j⟩
  show k0_pay3 (F := Ideal) (iblk m c 0 t) (ix2 p q) = G2 (V m c main_v45) (((cfg0.win 2).blk t).view.emb (ix2 p q))
  rw [KerRow.pay3_apply]
  unfold G2
  refine congr (congrArg Spec.qz (funext fun c' => ?_)) (Fin.ext ?_)
  · show V m c main_v45 (((cfg0.win 0).blk t).view.emb (ix2 p c')) = V m c main_v45 _
    refine congrArg (V m c main_v45) (funext fun a => Fin.ext ?_)
    match a with
    | ⟨0, _⟩ => show win0_0.index t (0 : Fin 2) * 4096 + 1 * p.val = win0_2.index t (0 : Fin 2) * 4096 + 1 * p.val; omega
    | ⟨1, _⟩ => show win0_0.index t (1 : Fin 2) * 16 + 1 * c'.val = c'.val; omega
  · show q.val = win0_2.index t (1 : Fin 2) * 16 + 1 * q.val; omega

/-- An index of the posterior array is in point t's block iff each coordinate is in the block's range. -/
theorem mem_blk2 (t : Fin cfg0.N) (i : S503808x16.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole main_v47_0).slice (win0_2.rect t)).set ↔ _
  rw [View.set_slice_whole, Rect.mem_set_unit]
  exact Iff.rfl

/-- Every index of the posterior array is in the block of the point its row belongs to. -/
theorem cover2 (i : S503808x16.Idx) : ∃ t : Fin cfg0.N, (cfg0.win 2).flush t = true ∧ i ∈ ((cfg0.win 2).blk t).view.set := by
  have hN : cfg0.N = 123 := N_0
  have hi0 : (i 0).val < 503808 := (i 0).isLt
  have hi1 : (i 1).val < 16 := (i 1).isLt
  let t : Fin cfg0.N := ⟨(i 0).val / 4096, by omega⟩
  obtain ⟨e0, e1, e2, e3, e4, e5⟩ := idx_facts t
  have ht : t.val = (i 0).val / 4096 := rfl
  refine ⟨t, flush0_2 t, ?_⟩
  rw [mem_blk2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 16 ≤ (i 1).val ∧ (i 1).val < win0_2.index t (1 : Fin 2) * 16 + 16; omega

/-- The posterior array after the run. -/
theorem final2 (c : Dev nD) : (dats m 0 c).arrAt 2 cfg0.N = G2 (V m c main_v45) :=
  (dats m 0 c).arrAt_eq_of_cover 2 (G2 (V m c main_v45)) (fun t _ => flushed2_eq m c t) cover2

end Cert.KerArrays

end
-- ==== Proof.KerArrays3.lean ====
/-
  The value vector: what the kernel's second output array holds after the run.

  Point t writes entries 4096·t … 4096·t + 4095; entry r depends only on row r of the padded table and entry r of the
  padded vector, and the blocks tile the vector.
-/
import proofs.«142230_j22256520528420_2_alg».proof.Proof.KerArrays

set_option maxRecDepth 16384

noncomputable section

open scoped BigOperators

namespace Cert.KerArrays3

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.KerArrays

variable (m : (ℓ : Loc nD τ sig) → Buf (Elt Ideal) ℓ) (ρ : Dev nD → PrngReg)

set_option maxHeartbeats 1000000 in
/-- What point t writes back to the value vector is block t of `G3` of the table and the vector as the region finds them. -/
theorem flushed3_eq (c : Dev nD) (t : Fin cfg0.N) :
    (dats m 0 c).flushed 3 t = ((cfg0.win 3).blk t).view.read (Elt Ideal) (G3 (V m c main_v45) (V m c main_v46)) := by
  show (cfg0.win 3).cut (grid0.coords t) ((dats m 0 c).after 3 t) = _
  rw [after0_3]
  unfold out0_3
  rw [View.canon_unit_zero hz1]
  simp only [View.ld_unit_zero (S := S4096x16) hz2, View.ld_unit_zero (S := S4096) hz1]
  obtain ⟨e0, e1, e2, e3, e4, e5⟩ := idx_facts t
  refine funext fun (j : S4096.Idx) => ?_
  obtain ⟨p, rfl⟩ : ∃ p : Fin 4096, j = ix1 p := ⟨j 0, eq_ix1 j⟩
  show k0_pay4 (F := Ideal) (iblk m c 0 t) (iblk m c 1 t) (ix1 p)
    = G3 (V m c main_v45) (V m c main_v46) (((cfg0.win 3).blk t).view.emb (ix1 p))
  rw [KerRow.pay4_apply]
  unfold G3
  refine congr (congrArg Spec.vqKer ?_) (funext fun c' => ?_)
  · show V m c main_v46 (((cfg0.win 1).blk t).view.emb (ix1 p)) = V m c main_v46 _
    refine congrArg (V m c main_v46) (funext fun a => Fin.ext ?_)
    match a with
    | ⟨0, _⟩ => show win0_1.index t (0 : Fin 1) * 4096 + 1 * p.val = win0_3.index t (0 : Fin 1) * 4096 + 1 * p.val; omega
  · show V m c main_v45 (((cfg0.win 0).blk t).view.emb (ix2 p c')) = V m c main_v45 _
    refine congrArg (V m c main_v45) (funext fun a => Fin.ext ?_)
    match a with
    | ⟨0, _⟩ => show win0_0.index t (0 : Fin 2) * 4096 + 1 * p.val = win0_3.index t (0 : Fin 1) * 4096 + 1 * p.val; omega
    | ⟨1, _⟩ => show win0_0.index t (1 : Fin 2) * 16 + 1 * c'.val = c'.val; omega

/-- An index of the value vector is in point t's block iff its coordinate is in the block's range. -/
theorem mem_blk3 (t : Fin cfg0.N) (i : S503808.Idx) :
    i ∈ ((cfg0.win 3).blk t).view.set ↔ ∀ a : Fin 1, win0_3.index t a * S4096.size a ≤ (i a).val ∧ (i a).val < win0_3.index t a * S4096.size a + S4096.size a := by
  show i ∈ ((View.whole main_v47_1).slice (win0_3.rect t)).set ↔ _
  rw [View.set_slice_whole, Rect.mem_set_unit]
  exact Iff.rfl

/-- Every index of the value vector is in the block of the point its row belongs to. -/
theorem cover3 (i : S503808.Idx) : ∃ t : Fin cfg0.N, (cfg0.win 3).flush t = true ∧ i ∈ ((cfg0.win 3).blk t).view.set := by
  have hN : cfg0.N = 123 := N_0
  have hi0 : (i 0).val < 503808 := (i 0).isLt
  let t : Fin cfg0.N := ⟨(i 0).val / 4096, by omega⟩
  obtain ⟨e0, e1, e2, e3, e4, e5⟩ := idx_facts t
  have ht : t.val = (i 0).val / 4096 := rfl
  refine ⟨t, flush0_3 t, ?_⟩
  rw [mem_blk3]
  intro a
  match a with
  | ⟨0, _⟩ => show win0_3.index t (0 : Fin 1) * 4096 ≤ (i 0).val ∧ (i 0).val < win0_3.index t (0 : Fin 1) * 4096 + 4096; omega

/-- The value vector after the run. -/
theorem final3 (c : Dev nD) : (dats m 0 c).arrAt 3 cfg0.N = G3 (V m c main_v45) (V m c main_v46) :=
  (dats m 0 c).arrAt_eq_of_cover 3 (G3 (V m c main_v45) (V m c main_v46)) (fun t _ => flushed3_eq m c t) cover3

end Cert.KerArrays3

end
-- ==== Proof.KerRun.lean ====
/-
  The kernel program's run with its two results named.

  After the region the program keeps the first 500000 rows of each output array; the arrays themselves are the row-wise
  functions of the padded table and vector established for the two output windows.
-/
import proofs.«142230_j22256520528420_2_alg».proof.Proof.KerArrays
import proofs.«142230_j22256520528420_2_alg».proof.Proof.KerArrays3

set_option maxRecDepth 16384

noncomputable section

open scoped BigOperators

namespace Cert.KerRun

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.KerArrays Cert.KerArrays3

variable (m : (ℓ : Loc nD τ sig) → Buf (Elt Ideal) ℓ) (ρ : Dev nD → PrngReg)

/-! ## The two results: the first 500000 rows -/

/-- The first result: the posterior array's first 500000 rows. -/
theorem tail48 (c : Dev nD) :
    Pipeline.afterTail₀ cfgs (dats m) 0 (V0 m) [hostOps1] c main_v48
      = extractStridedSlice S500000x16 ![0, 0] (G2 (V m c main_v45)) slices_S503808x16_S500000x16_0_0 := by
  unfold Pipeline.afterTail₀
  show StableHlo.after hostOps1 _ (Proc.devRef .tc main_v48) = _
  after_results
  exact congrArg (fun a => extractStridedSlice S500000x16 ![0, 0] a slices_S503808x16_S500000x16_0_0)
    ((Pipeline.withArrays_arr spec0 launch0.win.arr_inj c (V0 m c) (fun w => (dats m 0 c).arrAt w (cfgs 0).N) 2).trans (final2 m c))

/-- The second result: the value vector's first 500000 entries. -/
theorem tail49 (c : Dev nD) :
    Pipeline.afterTail₀ cfgs (dats m) 0 (V0 m) [hostOps1] c main_v49
      = extractStridedSlice S500000 ![0] (G3 (V m c main_v45) (V m c main_v46)) slices_S503808_S500000_0 := by
  unfold Pipeline.afterTail₀
  show StableHlo.after hostOps1 _ (Proc.devRef .tc main_v49) = _
  after_results
  exact congrArg (fun a => extractStridedSlice S500000 ![0] a slices_S503808_S500000_0)
    ((Pipeline.withArrays_arr spec0 launch0.win.arr_inj c (V0 m c) (fun w => (dats m 0 c).arrAt w (cfgs 0).N) 3).trans (final3 m c))

/-- The kernel program's run: every weakly fair execution terminates with the two results at the first 500000 rows of the
    row-wise functions of the padded table and vector, and the argument arrays as they were. -/
theorem run : θ_run defs (onTc (τ := τ) (main (F := Ideal))) ⟨m, fun _ => 0, ρ⟩ fun r => ∀ c : Dev nD,
      r.2.mem ((c.tc : Thread nD τ).loc main_v48)
        = extractStridedSlice S500000x16 ![0, 0] (G2 (V m c main_v45)) slices_S503808x16_S500000x16_0_0
      ∧ r.2.mem ((c.tc : Thread nD τ).loc main_v49)
        = extractStridedSlice S500000 ![0] (G3 (V m c main_v45) (V m c main_v46)) slices_S503808_S500000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v48 (Pipeline.mem_restRefs_of main_v48 (by decide) (by decide))).trans (tail48 m c),
      ((h c).2 main_v49 (Pipeline.mem_restRefs_of main_v49 (by decide) (by decide))).trans (tail49 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KerRun

end
-- ==== Proof.KerPrefix.lean ====
/-
  What the kernel's two input windows hold when it is launched.

  Before the launch the program turns the worker logits x into two tables, log(ν/16) and
  log(σ + ν/16) − log(ν/16); reads both at every observation's worker (a negative index wrapped once, the
  read clamped into the table); adds the first into a vector indexed by the observation's task and the second
  into a vector indexed by the flat position 16·task + label; reshapes the latter into sixteen columns; and
  extends both by 3808 rows of padding.  Row i < 500000 of the results is therefore the specification's
  class-dependent sum Dsum of task i, and its class-independent sum Bsum.

  Read outermost first: a padded array inside the operand is the operand; a reshape is the flat position; a
  scatter-add at a position is the sum of the updates whose index, read as a signed integer, is that position
  (an index outside the operand is dropped, so no wrapped index contributes); the gathered update is the table
  at the clamped worker; the tables are pointwise.
-/
import proofs.«142230_j22256520528420_2_alg».proof.Proof.Gen.KernelIdeal.Frame
import proofs.«142230_j22256520528420_2_alg».proof.Proof.Spec
import proofs.«142230_j22256520528420_2_alg».proof.Proof.Consts
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

open scoped BigOperators

namespace Cert.KerPrefix

open Cert.KernelIdeal Cert.KernelIdeal.Gen Idealize.ShloMosaic Idealize.ShloMosaic.ValueIdx

/-! ## The two per-worker tables -/

/-- The vector of ones, of sixteens, as the program broadcasts them. -/
def onesW : FVec Ideal S5000 .f32 :=
  broadcastInDim S5000 ![] Facts₀.bcast_S_S5000 (constant (F := Ideal) S_ .f32 0x3F800000#32)
def sixteensW : FVec Ideal S5000 .f32 :=
  broadcastInDim S5000 ![] Facts₀.bcast_S_S5000 (constant (F := Ideal) S_ .f32 0x41800000#32)

/-- 1/(1+e^{-x}) entry by entry, as the program computes it. -/
def sigTab (x : FVec Ideal S5000 .f32) : FVec Ideal S5000 .f32 :=
  Host.divf (F := Ideal) onesW (addf (F := Ideal) onesW (Host.exp (F := Ideal) (Host.negf (F := Ideal) x)))
/-- 1/(1+e^{-(-x)}) entry by entry. -/
def nsigTab (x : FVec Ideal S5000 .f32) : FVec Ideal S5000 .f32 :=
  Host.divf (F := Ideal) onesW
    (addf (F := Ideal) onesW (Host.exp (F := Ideal) (Host.negf (F := Ideal) (Host.negf (F := Ideal) x))))
/-- log(ν/16) entry by entry. -/
def baseTab (x : FVec Ideal S5000 .f32) : FVec Ideal S5000 .f32 :=
  Host.log (F := Ideal) (Host.divf (F := Ideal) (nsigTab x) sixteensW)
/-- log(σ + ν/16) − log(ν/16) entry by entry. -/
def diffTab (x : FVec Ideal S5000 .f32) : FVec Ideal S5000 .f32 :=
  subf (F := Ideal) (Host.log (F := Ideal) (addf (F := Ideal) (sigTab x) (Host.divf (F := Ideal) (nsigTab x) sixteensW)))
    (baseTab x)

theorem onesW_apply (j : S5000.Idx) : onesW j = 1 := by
  show Ideal.ofBits .f32 0x3F800000#32 = 1
  exact Cert.Consts.ofBits_one
theorem sixteensW_apply (j : S5000.Idx) : sixteensW j = ((16 : ℝ) : EReal) := by
  show Ideal.ofBits .f32 0x41800000#32 = _
  exact Cert.Consts.ofBits_sixteen

theorem sigTab_apply (x : FVec Ideal S5000 .f32) (j : S5000.Idx) : sigTab x j = Spec.sig (x j) := by
  show Ideal.div (onesW j) (onesW j + Ideal.exp (-(x j))) = _
  rw [onesW_apply]; rfl
theorem nsigTab_apply (x : FVec Ideal S5000 .f32) (j : S5000.Idx) : nsigTab x j = Spec.nsig (x j) := by
  show Ideal.div (onesW j) (onesW j + Ideal.exp (- -(x j))) = _
  rw [onesW_apply]; rfl
theorem baseTab_apply (x : FVec Ideal S5000 .f32) (j : S5000.Idx) : baseTab x j = Spec.base (x j) := by
  show Ideal.log (Ideal.div (nsigTab x j) (sixteensW j)) = _
  rw [nsigTab_apply, sixteensW_apply]; rfl
theorem diffTab_apply (x : FVec Ideal S5000 .f32) (j : S5000.Idx) : diffTab x j = Spec.diff (x j) := by
  show Ideal.log (sigTab x j + Ideal.div (nsigTab x j) (sixteensW j)) - baseTab x j = _
  rw [sigTab_apply, nsigTab_apply, sixteensW_apply, baseTab_apply]; rfl

/-! ## The wrapped worker index -/

/-- The worker index of every observation, a negative one moved up by the axis length. -/
def wrapJ (jj : IVec S5000000 32) : IVec S5000000 32 :=
  select (cmpi .slt jj (broadcastInDim S5000000 ![] Facts₀.bcast_S_S5000000 (constantI S_ 32 0#32)))
    (addi jj (broadcastInDim S5000000 ![] Facts₀.bcast_S_S5000000 (constantI S_ 32 5000#32))) jj

theorem wrapJ_apply (jj : IVec S5000000 32) (j : S5000000.Idx) : wrapJ jj j = Spec.wrapIdx 5000#32 (jj j) := rfl

/-- The flat position 16·ii + y of every observation, in 32-bit arithmetic. -/
def flatIdx (ii y : IVec S5000000 32) : IVec S5000000 32 :=
  addi (muli ii (broadcastInDim S5000000 ![] Facts₀.bcast_S_S5000000 (constantI S_ 32 16#32))) y

theorem flatIdx_apply (ii y : IVec S5000000 32) (j : S5000000.Idx) :
    flatIdx ii y j = IntOp.addi (IntOp.muli (ii j) 16#32) (y j) := rfl

/-! ## A column of indices read at a row -/

/-- A vector made a one-column matrix, read at row n, is the vector at n. -/
theorem col_apply {α : Type} (v : S5000000.Idx → α) (n : Fin 5000000) :
    broadcastInDim S5000000x1 ![0] Facts₀.bcast_S5000000_S5000000x1_0 v (ix2 n 0) = v (ix1 n) := by
  refine broadcastInDim_apply _ _ v _ (ix1 n) ?_
  intro a
  obtain rfl : a = 0 := Subsingleton.elim _ _
  rfl

/-! ## The gather of a table at a column of indices -/

/-- The gather of a 5000-entry table at a one-column matrix of start indices, read at n: the table at
    the start index of row n, read signed and clamped into [0, 4999]. -/
theorem gather_apply {α : Type} (x : S5000.Idx → α) (idx : IVec S5000000x1 32) (n : Fin 5000000)
    (v : BitVec 32) (hv : idx (ix2 n 0) = v) :
    Host.gather gather_S5000_S5000000x1_S5000000_n_0_n_n_0_1_1 x idx (ix1 n)
      = x (ix1 ⟨min v.toInt.toNat 4999, by omega⟩) := by
  unfold Host.gather
  refine congrArg x ?_
  funext a
  obtain rfl : a = 0 := Subsingleton.elim _ _
  refine Fin.ext ?_
  show gather_S5000_S5000000x1_S5000000_n_0_n_n_0_1_1.start (ix1 n) idx 0
      + gather_S5000_S5000000x1_S5000000_n_0_n_n_0_1_1.batchCoord (ix1 n) 0
      + gather_S5000_S5000000x1_S5000000_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S5000_S5000000x1_S5000000_n_0_n_n_0_1_1.startIndexMap from
    List.mem_singleton.mpr rfl)]
  have hsi : gather_S5000_S5000000x1_S5000000_n_0_n_n_0_1_1.siIdx (ix1 n)
      ⟨List.idxOf (0 : Fin 1) gather_S5000_S5000000x1_S5000000_n_0_n_n_0_1_1.startIndexMap,
        List.idxOf_lt_length_iff.2 (List.mem_singleton.mpr rfl)⟩ = ix2 n 0 := by
    funext b; refine Fin.ext ?_
    match b with
    | ⟨0, _⟩ => rfl
    | ⟨1, _⟩ => rfl
  rw [hsi, hv]
  rfl

/-! ## A scatter-add along the one axis, read at a position -/

/-- Fin N and the rank-one index type over N. -/
def ix1Equiv (N : Nat) : Fin N ≃ (⟨1, ![N]⟩ : Shape).Idx where
  toFun := ix1
  invFun := fun j => j 0
  left_inv := fun _ => rfl
  right_inv := fun j => (eq_ix1 j).symm

/-- For dimension numbers under which update n lands at the position its index names (read signed) when that is
    inside the operand and is dropped otherwise, the scatter-add of a vector read at position f is the operand there
    plus the sum of the updates whose index is f. -/
theorem scatterAdd_apply {N : Nat} (d : ScatterDims (⟨1, ![N]⟩ : Shape) S5000000x1 S5000000)
    (hd : ∀ (n : Fin 5000000) (idx : IVec S5000000x1 32) (f : Fin N),
      d.resultIdx? (ix1 n) idx = some (ix1 f) ↔ (idx (ix2 n 0)).toInt = (f.val : Int))
    (x : FVec Ideal (⟨1, ![N]⟩ : Shape) .f32) (idx : IVec S5000000x1 32) (upd : FVec Ideal S5000000 .f32) (f : Fin N) :
    Host.scatterAdd (F := Ideal) d x idx upd (ix1 f)
      = x (ix1 f) + ∑ n ∈ Finset.univ.filter (fun n : Fin 5000000 => (idx (ix2 n 0)).toInt = (f.val : Int)),
          upd (ix1 n) := by
  unfold Host.scatterAdd
  rw [Ideal.hostScatterAdd_def]
  unfold Ideal.hostScatterAdd
  beta_reduce
  refine congrArg (fun z => x (ix1 f) + z) ?_
  refine (Finset.sum_equiv (ix1Equiv 5000000) ?_ ?_).symm
  · intro n
    simp only [Finset.mem_filter, Finset.mem_univ, true_and]
    exact (hd n idx f).symm
  · intro n _
    rfl

/-- The landing rule from the two coordinate facts: the start of update n on the one axis is its index read signed,
    and it has no window coordinate. -/
theorem resultIdx?_iff {N : Nat} (d : ScatterDims (⟨1, ![N]⟩ : Shape) S5000000x1 S5000000)
    (hstart : ∀ (n : Fin 5000000) (idx : IVec S5000000x1 32), d.start (ix1 n) idx 0 = (idx (ix2 n 0)).toInt)
    (hwin : ∀ n : Fin 5000000, d.window (ix1 n) 0 = 0)
    (n : Fin 5000000) (idx : IVec S5000000x1 32) (f : Fin N) :
    d.resultIdx? (ix1 n) idx = some (ix1 f) ↔ (idx (ix2 n 0)).toInt = (f.val : Int) := by
  unfold ScatterDims.resultIdx?
  split
  · rename_i h
    rw [Option.some.injEq]
    constructor
    · intro e
      have hv := congrArg Fin.val (congrFun e 0)
      have h0 := h 0
      rw [hstart, hwin] at h0
      change (d.start (ix1 n) idx 0 + ((d.window (ix1 n) 0 : Nat) : Int)).toNat = f.val at hv
      rw [hstart, hwin] at hv
      omega
    · intro e
      funext a
      obtain rfl : a = 0 := Subsingleton.elim _ _
      refine Fin.ext ?_
      show (d.start (ix1 n) idx 0 + ((d.window (ix1 n) 0 : Nat) : Int)).toNat = f.val
      rw [hstart, hwin, e]
      omega
  · rename_i h
    constructor
    · intro e
      exact absurd e (by simp)
    · intro e
      exfalso
      apply h
      intro a
      obtain rfl : a = 0 := Subsingleton.elim _ _
      rw [hstart, hwin, e]
      have := f.isLt
      constructor
      · omega
      · show ((f.val : Int) + ((0 : Nat) : Int)) < ((N : Nat) : Int)
        omega

theorem start500000 (n : Fin 5000000) (idx : IVec S5000000x1 32) :
    scatter_S500000_S5000000x1_S5000000_n_0_0_1.start (ix1 n) idx 0 = (idx (ix2 n 0)).toInt := by
  unfold ScatterDims.start
  rw [dif_pos (show (0 : Fin 1) ∈ scatter_S500000_S5000000x1_S5000000_n_0_0_1.scatterDimsToOperandDims from
    List.mem_singleton.mpr rfl)]
  have hsi : scatter_S500000_S5000000x1_S5000000_n_0_0_1.siIdx (ix1 n)
      ⟨List.idxOf (0 : Fin 1) scatter_S500000_S5000000x1_S5000000_n_0_0_1.scatterDimsToOperandDims,
        List.idxOf_lt_length_iff.2 (List.mem_singleton.mpr rfl)⟩ = ix2 n 0 := by
    funext b; refine Fin.ext ?_
    match b with
    | ⟨0, _⟩ => rfl
    | ⟨1, _⟩ => rfl
  rw [hsi]

theorem window500000 (n : Fin 5000000) : scatter_S500000_S5000000x1_S5000000_n_0_0_1.window (ix1 n) 0 = 0 := by
  unfold ScatterDims.window
  rw [dif_neg (by decide)]

theorem start8000000 (n : Fin 5000000) (idx : IVec S5000000x1 32) :
    scatter_S8000000_S5000000x1_S5000000_n_0_0_1.start (ix1 n) idx 0 = (idx (ix2 n 0)).toInt := by
  unfold ScatterDims.start
  rw [dif_pos (show (0 : Fin 1) ∈ scatter_S8000000_S5000000x1_S5000000_n_0_0_1.scatterDimsToOperandDims from
    List.mem_singleton.mpr rfl)]
  have hsi : scatter_S8000000_S5000000x1_S5000000_n_0_0_1.siIdx (ix1 n)
      ⟨List.idxOf (0 : Fin 1) scatter_S8000000_S5000000x1_S5000000_n_0_0_1.scatterDimsToOperandDims,
        List.idxOf_lt_length_iff.2 (List.mem_singleton.mpr rfl)⟩ = ix2 n 0 := by
    funext b; refine Fin.ext ?_
    match b with
    | ⟨0, _⟩ => rfl
    | ⟨1, _⟩ => rfl
  rw [hsi]

theorem window8000000 (n : Fin 5000000) : scatter_S8000000_S5000000x1_S5000000_n_0_0_1.window (ix1 n) 0 = 0 := by
  unfold ScatterDims.window
  rw [dif_neg (by decide)]

/-! ## The two arrays the program builds -/

/-- Task by task, the sum of log(ν/16) over the task's observations, as the program accumulates it. -/
def Bvec (x : FVec Ideal S5000 .f32) (ii jj : IVec S5000000 32) : FVec Ideal S500000 .f32 :=
  Host.scatterAdd (F := Ideal) scatter_S500000_S5000000x1_S5000000_n_0_0_1
    (broadcastInDim S500000 ![] Facts₀.bcast_S_S500000 (constant (F := Ideal) S_ .f32 0x00000000#32))
    (broadcastInDim S5000000x1 ![0] Facts₀.bcast_S5000000_S5000000x1_0 ii)
    (Host.gather gather_S5000_S5000000x1_S5000000_n_0_n_n_0_1_1 (baseTab x)
      (broadcastInDim S5000000x1 ![0] Facts₀.bcast_S5000000_S5000000x1_0 (wrapJ jj)))

/-- Flat position by flat position, the sum of the diagonal surplus over the observations landing there. -/
def Dvec (x : FVec Ideal S5000 .f32) (ii jj y : IVec S5000000 32) : FVec Ideal S8000000 .f32 :=
  Host.scatterAdd (F := Ideal) scatter_S8000000_S5000000x1_S5000000_n_0_0_1
    (broadcastInDim S8000000 ![] Facts₀.bcast_S_S8000000 (constant (F := Ideal) S_ .f32 0x00000000#32))
    (broadcastInDim S5000000x1 ![0] Facts₀.bcast_S5000000_S5000000x1_0 (flatIdx ii y))
    (Host.gather gather_S5000_S5000000x1_S5000000_n_0_n_n_0_1_1 (diffTab x)
      (broadcastInDim S5000000x1 ![0] Facts₀.bcast_S5000000_S5000000x1_0 (wrapJ jj)))

/-- The same as a matrix of sixteen columns. -/
def Dmat (x : FVec Ideal S5000 .f32) (ii jj y : IVec S5000000 32) : FVec Ideal S500000x16 .f32 :=
  shapeCast S500000x16 (Dvec x ii jj y) Facts₀.shapeCasts_S8000000_S500000x16

theorem Dmat_apply (x : FVec Ideal S5000 .f32) (ii jj y : IVec S5000000 32) (i : Fin 500000) (k : Fin 16) :
    Dmat x ii jj y (ix2 i k) = Dvec x ii jj y (ix1 ⟨16 * i.val + k.val, by omega⟩) := by
  unfold Dmat
  refine shapeCast_apply _ _ (ix2 i k) (ix1 ⟨16 * i.val + k.val, by omega⟩) ?_
  rw [Shape.rowMajor_val_two, Shape.rowMajor_val_one]
  show 16 * i.val + k.val = i.val * 16 + k.val
  omega

/-- The gathered table entry of observation n is the table at the worker the specification names. -/
theorem gather_wrap_apply (t : FVec Ideal S5000 .f32) (jj : IVec S5000000 32) (n : Fin 5000000) :
    Host.gather gather_S5000_S5000000x1_S5000000_n_0_n_n_0_1_1 t
        (broadcastInDim S5000000x1 ![0] Facts₀.bcast_S5000000_S5000000x1_0 (wrapJ jj)) (ix1 n)
      = t (ix1 (Spec.cj jj n)) :=
  gather_apply t _ n (Spec.wrapIdx 5000#32 (jj (ix1 n))) (by rw [col_apply, wrapJ_apply])

/-- Entry i of the accumulated vector is the specification's class-independent sum of task i. -/
theorem Bvec_apply (x : FVec Ideal S5000 .f32) (ii jj : IVec S5000000 32) (i : Fin 500000) :
    Bvec x ii jj (ix1 i) = Spec.Bsum x ii jj i := by
  unfold Bvec
  rw [scatterAdd_apply _ (resultIdx?_iff _ start500000 window500000)]
  have h0 : (broadcastInDim S500000 ![] Facts₀.bcast_S_S500000 (constant (F := Ideal) S_ .f32 0x00000000#32)
      : FVec Ideal S500000 .f32) (ix1 i) = 0 := by
    show Ideal.ofBits .f32 0x00000000#32 = 0
    exact Cert.Consts.ofBits_zero
  rw [h0, zero_add]
  unfold Spec.Bsum
  refine Finset.sum_congr (Finset.filter_congr fun n _ => by rw [col_apply]) fun n _ => ?_
  rw [gather_wrap_apply, baseTab_apply]

/-- Flat position 16·i + k of the accumulated vector is the specification's class-dependent sum of task i, class k. -/
theorem Dvec_apply (x : FVec Ideal S5000 .f32) (ii jj y : IVec S5000000 32) (i : Fin 500000) (k : Fin 16) :
    Dvec x ii jj y (ix1 ⟨16 * i.val + k.val, by omega⟩) = Spec.Dsum x ii jj y i k := by
  unfold Dvec
  rw [scatterAdd_apply _ (resultIdx?_iff _ start8000000 window8000000)]
  have h0 : (broadcastInDim S8000000 ![] Facts₀.bcast_S_S8000000 (constant (F := Ideal) S_ .f32 0x00000000#32)
      : FVec Ideal S8000000 .f32) (ix1 ⟨16 * i.val + k.val, by omega⟩) = 0 := by
    show Ideal.ofBits .f32 0x00000000#32 = 0
    exact Cert.Consts.ofBits_zero
  rw [h0, zero_add]
  unfold Spec.Dsum
  refine Finset.sum_congr (Finset.filter_congr fun n _ => by rw [col_apply, flatIdx_apply]) fun n _ => ?_
  rw [gather_wrap_apply, diffTab_apply]

/-! ## The host operations before the launch, stretch by stretch

The operations before the launch are four consecutive lists: the long one that builds the two arrays, the padding of
the matrix, one constant, and the padding of the vector.  What a stretch leaves in a buffer depends only on the few
buffers it reads, so each is stated over arbitrary contents of those. -/

open Idealize.ShloMosaic.StableHlo

/-- The contents after two lists run in order are the second list's after the first's. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

attribute [local irreducible] Host.gather Host.scatterAdd pad shapeCast in
set_option maxHeartbeats 1000000 in
/-- The long stretch leaves the accumulated vector in its buffer. -/
theorem stage0_v40 (M : Valuation τ sig (Elt Ideal)) (x : FVec Ideal S5000 .f32) (ii jj : IVec S5000000 32)
    (hx : M (Proc.devRef .tc main_arg0) = x) (hii : M (Proc.devRef .tc main_arg1) = ii)
    (hjj : M (Proc.devRef .tc main_arg2) = jj) :
    after (hostOps0 (F := Ideal)) M (Proc.devRef .tc main_v40) = Bvec x ii jj := by
  simp only [Gen.hostOps0]
  after_results_simp
  rw [hx, hii, hjj]
  rfl

attribute [local irreducible] Host.gather Host.scatterAdd pad shapeCast in
set_option maxHeartbeats 1000000 in
/-- The long stretch leaves the accumulated matrix in its buffer. -/
theorem stage0_v44 (M : Valuation τ sig (Elt Ideal)) (x : FVec Ideal S5000 .f32) (ii jj y : IVec S5000000 32)
    (hx : M (Proc.devRef .tc main_arg0) = x) (hii : M (Proc.devRef .tc main_arg1) = ii)
    (hjj : M (Proc.devRef .tc main_arg2) = jj) (hy : M (Proc.devRef .tc main_arg3) = y) :
    after (hostOps0 (F := Ideal)) M (Proc.devRef .tc main_v44) = Dmat x ii jj y := by
  simp only [Gen.hostOps0]
  after_results_simp
  rw [hx, hii, hjj, hy]
  rfl

/-- The two middle stretches do not write the accumulated vector. -/
theorem stage12_v40 (W : Valuation τ sig (Elt Ideal)) :
    after (hostOps0_2 (F := Ideal)) (after (hostOps0_1 (F := Ideal)) W) (Proc.devRef .tc main_v40)
      = W (Proc.devRef .tc main_v40) := by
  simp only [Gen.hostOps0_1, Gen.hostOps0_2]
  after_results_simp

/-- The two last stretches do not write the padded matrix. -/
theorem stage23_v45 (W : Valuation τ sig (Elt Ideal)) :
    after (hostOps0_3 (F := Ideal)) (after (hostOps0_2 (F := Ideal)) W) (Proc.devRef .tc main_v45)
      = W (Proc.devRef .tc main_v45) := by
  simp only [Gen.hostOps0_2, Gen.hostOps0_3]
  after_results_simp

/-- The padding of the matrix, read at a row below 500000, is the matrix there. -/
theorem stage1_v45_apply (W : Valuation τ sig (Elt Ideal)) (D : FVec Ideal S500000x16 .f32)
    (hW : W (Proc.devRef .tc main_v44) = D) (i : Fin 503808) (hi : i.val < 500000) (k : Fin 16) :
    (after (hostOps0_1 (F := Ideal)) W (Proc.devRef .tc main_v45) : S503808x16.Idx → EReal) (ix2 i k)
      = D (ix2 ⟨i.val, hi⟩ k) := by
  simp only [Gen.hostOps0_1]
  after_results_simp
  rw [hW]
  show pad S503808x16 ![0, 0] ![3808, 0] ![0, 0] D _ Facts₀.pads_S500000x16_S503808x16_038080_000 Facts₀.h_S_ (ix2 i k) = _
  refine pad_apply_of_inside _ _ _ D _ _ _ (ix2 i k) (ix2 ⟨i.val, hi⟩ k) ?_
  intro a
  match a with
  | ⟨0, _⟩ => show i.val = 0 + i.val * (0 + 1); omega
  | ⟨1, _⟩ => show k.val = 0 + k.val * (0 + 1); omega

/-- The padding of the vector, read at an entry below 500000, is the vector there. -/
theorem stage3_v46_apply (W : Valuation τ sig (Elt Ideal)) (B : FVec Ideal S500000 .f32)
    (hW : W (Proc.devRef .tc main_v40) = B) (i : Fin 503808) (hi : i.val < 500000) :
    (after (hostOps0_3 (F := Ideal)) W (Proc.devRef .tc main_v46) : S503808.Idx → EReal) (ix1 i)
      = B (ix1 ⟨i.val, hi⟩) := by
  simp only [Gen.hostOps0_3]
  after_results_simp
  rw [hW]
  show pad S503808 ![0] ![3808] ![0] B _ Facts₀.pads_S500000_S503808_038080 Facts₀.h_S_ (ix1 i) = _
  refine pad_apply_of_inside _ _ _ B _ _ _ (ix1 i) (ix1 ⟨i.val, hi⟩) ?_
  intro a
  obtain rfl : a = 0 := Subsingleton.elim _ _
  show i.val = 0 + i.val * (0 + 1)
  omega

/-! ## The two windows as launched -/

/-- Row i < 500000 of the padded [503808,16] matrix the kernel reads is task i's class-dependent sums. -/
theorem D_row (m : (ℓ : Loc nD τ sig) → Buf (Elt Ideal) ℓ) (c : Dev nD) (i : Fin 503808) (hi : i.val < 500000)
    (k : Fin 16) :
    (V (F := Ideal) m c main_v45 : S503808x16.Idx → EReal) (ix2 i k)
      = Spec.Dsum (m ((c.tc : Thread nD τ).loc main_arg0)) (m ((c.tc : Thread nD τ).loc main_arg1))
          (m ((c.tc : Thread nD τ).loc main_arg2)) (m ((c.tc : Thread nD τ).loc main_arg3)) ⟨i.val, hi⟩ k := by
  dsimp only [Gen.V, Gen.V0]
  rw [List.flatten_cons, List.flatten_cons, List.flatten_cons, List.flatten_cons, List.flatten_nil, List.append_nil,
    after_append, after_append, after_append, stage23_v45]
  refine (stage1_v45_apply _ (Dmat (m ((c.tc : Thread nD τ).loc main_arg0)) (m ((c.tc : Thread nD τ).loc main_arg1))
    (m ((c.tc : Thread nD τ).loc main_arg2)) (m ((c.tc : Thread nD τ).loc main_arg3))) ?_ i hi k).trans ?_
  · exact stage0_v44 _ _ _ _ _ rfl rfl rfl rfl
  · rw [Dmat_apply]
    exact Dvec_apply _ _ _ _ ⟨i.val, hi⟩ k

/-- Entry i < 500000 of the padded [503808] vector the kernel reads is task i's class-independent sum. -/
theorem B_row (m : (ℓ : Loc nD τ sig) → Buf (Elt Ideal) ℓ) (c : Dev nD) (i : Fin 503808) (hi : i.val < 500000) :
    (V (F := Ideal) m c main_v46 : S503808.Idx → EReal) (ix1 i)
      = Spec.Bsum (m ((c.tc : Thread nD τ).loc main_arg0)) (m ((c.tc : Thread nD τ).loc main_arg1))
          (m ((c.tc : Thread nD τ).loc main_arg2)) ⟨i.val, hi⟩ := by
  dsimp only [Gen.V, Gen.V0]
  rw [List.flatten_cons, List.flatten_cons, List.flatten_cons, List.flatten_cons, List.flatten_nil, List.append_nil,
    after_append, after_append, after_append]
  refine (stage3_v46_apply _ (Bvec (m ((c.tc : Thread nD τ).loc main_arg0)) (m ((c.tc : Thread nD τ).loc main_arg1))
    (m ((c.tc : Thread nD τ).loc main_arg2))) ?_ i hi).trans (Bvec_apply _ _ _ ⟨i.val, hi⟩)
  rw [stage12_v40]
  exact stage0_v40 _ _ _ _ rfl rfl rfl

end Cert.KerPrefix

end
-- ==== Proof.RefRow.lean ====
/-
  The reference's log-softmax and entropy, read row by row above the scatter-added table.

  The table c is treated as one opaque array of shape [500000, 16].  Row i of the first result is
  the softmax of row i of c; entry i of the second result is  Σ_k q_k·c_k − Σ_k q_k·log q_k  over
  that row.  The only operation that is not read element by element is the row maximum: a reduce
  with a maximum body from −∞, which at row i is the fold of max from ⊥ over the row's sixteen
  entries, that is, their supremum.
-/
import proofs.«142230_j22256520528420_2_alg».proof.Proof.RefReadP
import proofs.«142230_j22256520528420_2_alg».proof.Proof.Spec
import proofs.«142230_j22256520528420_2_alg».proof.Proof.Consts
import Idealize.ShloMosaic.Lib.ValueIdx
import Idealize.ShloMosaic.PureOps.Ideal.Laws

noncomputable section

open scoped BigOperators

namespace Cert.RefRow

open Cert.ReferenceIdeal Cert.ReferenceIdeal.Gen Cert.ReferenceIdeal.ReadP Idealize.ShloMosaic Idealize.ShloMosaic.ValueIdx

/-! ## Index equations: the composed index functions at literal coordinates -/

theorem idx_v3_v4 (i : Fin 500000) (k : Fin 16) : idx_main_call0_v3 (idx_main_call0_v4 (ix2 i k)) = ix1 i :=
  funext fun a => Fin.ext (by match a with | ⟨0, _⟩ => rfl)

theorem idx_v8_v10 (i : Fin 500000) (k : Fin 16) : idx_main_call0_v8 (idx_main_call0_v10 (ix2 i k)) = ix1 i :=
  funext fun a => Fin.ext (by match a with | ⟨0, _⟩ => rfl)

theorem idx_v7 (i : Fin 500000) (k : Fin 16) : idx_main_call0_v7 (ix1 i) k = ix2 i k :=
  funext fun a => Fin.ext (by match a with | ⟨0, _⟩ => rfl | ⟨1, _⟩ => rfl)

theorem idx_v58 (i : Fin 500000) (k : Fin 16) : idx_main_v58 (ix1 i) k = ix2 i k :=
  funext fun a => Fin.ext (by match a with | ⟨0, _⟩ => rfl | ⟨1, _⟩ => rfl)

theorem idx_v60 (i : Fin 500000) (k : Fin 16) : idx_main_v60 (ix1 i) k = ix2 i k :=
  funext fun a => Fin.ext (by match a with | ⟨0, _⟩ => rfl | ⟨1, _⟩ => rfl)

/-! ## The row maximum -/

/-- The fold of max from ⊥ over all sixteen classes is the supremum of the sixteen values. -/
theorem fold_max_bot_eq_sup (g : Fin 16 → EReal) :
    (Finset.univ : Finset (Fin 16)).fold (FloatOps.maximumf (F := Ideal) (φ := .f32)) (⊥ : EReal) g = Finset.univ.sup g := by
  unfold Finset.sup
  rfl

/-- A reduce with a maximum body from −∞ along the class axis of an array c, at row i, is the
    greatest of the sixteen entries of that row. -/
theorem hostRowMax (c : (⟨S500000x16, .f32⟩ : BufTy).Contents (Elt Ideal)) (i : Fin 500000) :
    (Host.reduce (FloatOps.maximumf (F := Ideal) (φ := .f32)) c (val_main_call0_cst (F := Ideal))
        reducesTo_S500000x16_S500000_d1 h_S_ : (⟨S500000, .f32⟩ : BufTy).Contents (Elt Ideal)) (ix1 i)
      = Spec.rowMax (fun k' : Fin 16 => c (ix2 i k')) := by
  have h : S500000x16.Reduces [1] S500000 := by decide
  refine (Host.reduce_eq_fold_single (FloatOps.maximumf (F := Ideal) (φ := .f32)) c (val_main_call0_cst (F := Ideal))
    reducesTo_S500000x16_S500000_d1 h h_S_ (ix1 i)).trans ?_
  have hf : (c ∘ h.lift (ix1 i)) = fun k : Fin 16 => c (ix2 i k) :=
    funext fun k => congrArg c (funext fun a => Fin.ext (by match a with | ⟨0, _⟩ => rfl | ⟨1, _⟩ => rfl))
  have hb : val_main_call0_cst (F := Ideal) (Shape.Idx.first h_S_) = (⊥ : EReal) := by
    rw [val_main_call0_cst_apply, Ideal.ofBits_def, Cert.Consts.ofBits_neg_inf]
  rw [hf, hb]
  exact fold_max_bot_eq_sup _

variable (x0 : (⟨S5000, .f32⟩ : BufTy).Contents (Elt Ideal)) (x1 x2 x3 : (⟨S5000000, .i32⟩ : BufTy).Contents (Elt Ideal))

/-- The reduce at row i is the row maximum of the table. -/
theorem call0_v0_apply (i : Fin 500000) :
    val_main_call0_v0 (F := Ideal) x0 x1 x2 x3 (ix1 i)
      = Spec.rowMax (fun k' : Fin 16 => val_main_v54 (F := Ideal) x0 x1 x2 x3 (ix2 i k')) := by
  unfold val_main_call0_v0
  generalize val_main_v54 (F := Ideal) x0 x1 x2 x3 = c
  exact hostRowMax c i

/-- Taking the maximum with −∞ once more changes nothing. -/
theorem call0_v2_apply (i : Fin 500000) :
    val_main_call0_v2 (F := Ideal) x0 x1 x2 x3 (ix1 i)
      = Spec.rowMax (fun k' : Fin 16 => val_main_v54 (F := Ideal) x0 x1 x2 x3 (ix2 i k')) := by
  rw [val_main_call0_v2_apply, val_main_call0_v1_apply, val_main_call0_cst_0_apply, call0_v0_apply,
    Ideal.ofBits_def, Cert.Consts.ofBits_neg_inf, Ideal.maximumf_def]
  exact max_eq_right bot_le

/-- The row maximum broadcast back along the row. -/
theorem call0_v4_apply (i : Fin 500000) (k : Fin 16) :
    val_main_call0_v4 (F := Ideal) x0 x1 x2 x3 (ix2 i k)
      = Spec.rowMax (fun k' : Fin 16 => val_main_v54 (F := Ideal) x0 x1 x2 x3 (ix2 i k')) := by
  rw [val_main_call0_v4_apply, val_main_call0_v3_apply, idx_v3_v4, call0_v2_apply]

/-- The shifted entry c_k − max. -/
theorem call0_v5_apply (i : Fin 500000) (k : Fin 16) :
    val_main_call0_v5 (F := Ideal) x0 x1 x2 x3 (ix2 i k)
      = val_main_v54 (F := Ideal) x0 x1 x2 x3 (ix2 i k)
        - Spec.rowMax (fun k' : Fin 16 => val_main_v54 (F := Ideal) x0 x1 x2 x3 (ix2 i k')) := by
  rw [val_main_call0_v5_apply, call0_v4_apply, Ideal.subf_def]

/-- The normaliser Σ_k e^{c_k − max}. -/
theorem call0_v7_apply (i : Fin 500000) :
    val_main_call0_v7 (F := Ideal) x0 x1 x2 x3 (ix1 i)
      = ∑ k' : Fin 16, Ideal.exp (val_main_v54 (F := Ideal) x0 x1 x2 x3 (ix2 i k')
          - Spec.rowMax (fun k'' : Fin 16 => val_main_v54 (F := Ideal) x0 x1 x2 x3 (ix2 i k''))) := by
  rw [val_main_call0_v7_apply, val_main_call0_cst_1_apply, Ideal.ofBits_def, Cert.Consts.ofBits_zero, zero_add]
  refine Finset.sum_congr rfl fun k' _ => ?_
  rw [idx_v7, val_main_call0_v6_apply, call0_v5_apply, Ideal.hostUnary_exp_def]

/-- The log of the normaliser broadcast back along the row. -/
theorem call0_v10_apply (i : Fin 500000) (k : Fin 16) :
    val_main_call0_v10 (F := Ideal) x0 x1 x2 x3 (ix2 i k)
      = Ideal.log (∑ k' : Fin 16, Ideal.exp (val_main_v54 (F := Ideal) x0 x1 x2 x3 (ix2 i k')
          - Spec.rowMax (fun k'' : Fin 16 => val_main_v54 (F := Ideal) x0 x1 x2 x3 (ix2 i k'')))) := by
  rw [val_main_call0_v10_apply, val_main_call0_v9_apply, val_main_call0_v8_apply, idx_v8_v10, call0_v7_apply,
    Ideal.hostUnary_log_def]

/-- The log-softmax of row i of the table, at class k. -/
theorem v55_apply (i : Fin 500000) (k : Fin 16) :
    val_main_v55 (F := Ideal) x0 x1 x2 x3 (ix2 i k)
      = Spec.lsm (fun k' : Fin 16 => val_main_v54 (F := Ideal) x0 x1 x2 x3 (ix2 i k')) k := by
  rw [val_main_v55_apply, call0_v5_apply, call0_v10_apply, Ideal.subf_def]
  rfl

/-- The first result at (i, k): the softmax of row i of the table, at class k. -/
theorem out0_apply (i : Fin 500000) (k : Fin 16) :
    val_main_v56 (F := Ideal) x0 x1 x2 x3 (ix2 i k)
      = Spec.qz (fun k' : Fin 16 => val_main_v54 (F := Ideal) x0 x1 x2 x3 (ix2 i k')) k := by
  rw [val_main_v56_apply, v55_apply, Ideal.hostUnary_exp_def]
  rfl

/-- Σ_k q_k·c_k over row i. -/
theorem v58_apply (i : Fin 500000) :
    val_main_v58 (F := Ideal) x0 x1 x2 x3 (ix1 i)
      = ∑ k : Fin 16, Spec.qz (fun k' : Fin 16 => val_main_v54 (F := Ideal) x0 x1 x2 x3 (ix2 i k')) k
          * val_main_v54 (F := Ideal) x0 x1 x2 x3 (ix2 i k) := by
  rw [val_main_v58_apply, val_main_cst_11_apply, Ideal.ofBits_def, Cert.Consts.ofBits_zero, zero_add]
  refine Finset.sum_congr rfl fun k _ => ?_
  rw [idx_v58, val_main_v57_apply, out0_apply, Ideal.mulf_def]

/-- Σ_k q_k·log q_k over row i. -/
theorem v60_apply (i : Fin 500000) :
    val_main_v60 (F := Ideal) x0 x1 x2 x3 (ix1 i)
      = ∑ k : Fin 16, Spec.qz (fun k' : Fin 16 => val_main_v54 (F := Ideal) x0 x1 x2 x3 (ix2 i k')) k
          * Spec.lsm (fun k' : Fin 16 => val_main_v54 (F := Ideal) x0 x1 x2 x3 (ix2 i k')) k := by
  rw [val_main_v60_apply, val_main_cst_12_apply, Ideal.ofBits_def, Cert.Consts.ofBits_zero, zero_add]
  refine Finset.sum_congr rfl fun k _ => ?_
  rw [idx_v60, val_main_v59_apply, out0_apply, v55_apply, Ideal.mulf_def]

/-- The second result at i: Σ q·c − Σ q·log q over row i of the table. -/
theorem out1_apply (i : Fin 500000) :
    val_main_v61 (F := Ideal) x0 x1 x2 x3 (ix1 i)
      = Spec.vqRef (fun k' : Fin 16 => val_main_v54 (F := Ideal) x0 x1 x2 x3 (ix2 i k')) := by
  rw [val_main_v61_apply, v58_apply, v60_apply, Ideal.subf_def]
  rfl

end Cert.RefRow

end
-- ==== Proof.RefCll.lean ====
/-
  The reference's table of class-conditional log-likelihoods, read at an index.

  The reference builds, for every worker j, the 16 × 16 matrix log(θ_j[k,k'] / Σ_k'' θ_j[k,k'']) of its
  row-normalised confusion matrix; gathers, for every observation n, the column of that matrix at the observed label
  (row k of the gathered array is the worker's entry (k, y_n)); and scatter-adds the gathered rows into the tasks, row n
  going to task ii[n].  Entry (i, k) of the result is therefore the sum, over the observations of task i, of the
  worker's log-confusion entry (k, y_n): the specification's `cll`.  Three steps — the table, the gather, the
  scatter-add — and their assembly.
-/
import proofs.«142230_j22256520528420_2_alg».proof.Proof.RefReadP
import proofs.«142230_j22256520528420_2_alg».proof.Proof.Spec
import proofs.«142230_j22256520528420_2_alg».proof.Proof.Consts
import Idealize.ShloMosaic.Lib.ValueIdx
import Idealize.ShloMosaic.Lib.Pipeline.Value
import Idealize.ShloMosaic.PureOps.Ideal.Laws

noncomputable section
open scoped BigOperators
namespace Cert.RefCll
open Cert.ReferenceIdeal Cert.ReferenceIdeal.ReadP Idealize.ShloMosaic Idealize.ShloMosaic.ValueIdx

/-! ## The table of log-confusion entries -/

/-- σ of a worker's logit, as the reference spells it. -/
theorem sig_apply (x0 : (⟨S5000, .f32⟩ : BufTy).Contents (Elt Ideal)) (j : S5000.Idx) :
    val_main_v5 (F := Ideal) x0 j = Spec.sig (x0 j) := by
  rw [val_main_v5_apply, val_main_v4_apply, val_main_cst_0_apply, val_main_v3_apply, val_main_v2_apply, val_main_cst_apply,
    val_main_v1_apply, val_main_v0_apply]
  simp only [Ideal.hostDivf_def, Ideal.addf_def, Ideal.hostUnary_exp_def, Ideal.hostNegf_def, Ideal.negf_def, Ideal.ofBits_def,
    Cert.Consts.ofBits_one]
  rfl

/-- σ of the negated logit, with the double negation the reference carries. -/
theorem nsig_apply (x0 : (⟨S5000, .f32⟩ : BufTy).Contents (Elt Ideal)) (j : S5000.Idx) :
    val_main_v12 (F := Ideal) x0 j = Spec.nsig (x0 j) := by
  rw [val_main_v12_apply, val_main_v11_apply, val_main_cst_2_apply, val_main_v10_apply, val_main_v9_apply, val_main_cst_1_apply,
    val_main_v8_apply, val_main_v7_apply, val_main_v6_apply]
  simp only [Ideal.hostDivf_def, Ideal.addf_def, Ideal.hostUnary_exp_def, Ideal.hostNegf_def, Ideal.negf_def, Ideal.ofBits_def,
    Cert.Consts.ofBits_one]
  rfl

/-- The identity matrix: the comparison of the row number with the column number, converted to a float, is 1 on the
    diagonal and 0 off it. -/
theorem eye_apply (k k' : Fin 16) :
    val_main_v18 (F := Ideal) (ix2 k k') = if k = k' then (1 : EReal) else 0 := by
  have hbit : ∀ a b : Fin 16, IntOp.cmpi .eq (IntOp.addi (BitVec.ofNat 32 a.val) 0#32) (BitVec.ofNat 32 b.val)
      = if a = b then 1#1 else 0#1 := by decide
  rw [val_main_v18_apply, val_main_v17_apply, val_main_v16_apply, val_main_v13_apply, val_main_v15_apply,
    val_main_c_apply, val_main_v14_apply]
  show FloatOps.uitofp (F := Ideal) .f32
    (IntOp.cmpi .eq (IntOp.addi (BitVec.ofNat 32 k.val) 0#32) (BitVec.ofNat 32 k'.val)) = _
  rw [hbit k k']
  by_cases h : k = k'
  · rw [if_pos h, if_pos h]
    show (((1#1 : BitVec 1).toNat : ℝ) : EReal) = 1
    simp
  · rw [if_neg h, if_neg h]
    show (((0#1 : BitVec 1).toNat : ℝ) : EReal) = 0
    simp

/-- Entry (j, k, k') of the unnormalised table is the confusion matrix of worker j at (k, k'). -/
theorem theta_apply (x0 : (⟨S5000, .f32⟩ : BufTy).Contents (Elt Ideal)) (j : Fin 5000) (k k' : Fin 16) :
    val_main_v32 (F := Ideal) x0 (ix3 j k k') = Spec.theta (x0 (ix1 j)) k k' := by
  have e1 : idx_main_v20 (idx_main_v22 (ix3 j k k')) = ix1 j :=
    funext fun a => Fin.ext (by match a with | ⟨0, _⟩ => rfl)
  have e2 : idx_main_v21 (idx_main_v23 (ix3 j k k')) = ix2 k k' :=
    funext fun a => Fin.ext (by match a with | ⟨0, _⟩ => rfl | ⟨1, _⟩ => rfl)
  have e3 : idx_main_v25 (idx_main_v27 (ix3 j k k')) = ix1 j :=
    funext fun a => Fin.ext (by match a with | ⟨0, _⟩ => rfl)
  rw [val_main_v32_apply, val_main_v30_apply, val_main_v24_apply, val_main_v22_apply, val_main_v20_apply,
    val_main_v23_apply, val_main_v21_apply, val_main_v29_apply, val_main_v27_apply, val_main_v25_apply,
    val_main_v28_apply, val_main_v26_apply, val_main_v19_apply, val_main_cst_3_apply, val_main_v31_apply,
    val_main_cst_4_apply, e1, e2, e3, sig_apply, nsig_apply, eye_apply]
  simp only [Ideal.hostDivf_def, Ideal.addf_def, Ideal.mulf_def, Ideal.ofBits_def, Cert.Consts.ofBits_sixteenth,
    Cert.Consts.ofBits_two]
  rfl

/-- Entry (j, k, k') of the table the gather reads: the log of the confusion entry over its row sum. -/
theorem logTheta_apply (x0 : (⟨S5000, .f32⟩ : BufTy).Contents (Elt Ideal)) (j : Fin 5000) (k k' : Fin 16) :
    val_main_v37 (F := Ideal) x0 (ix3 j k k') = Spec.logTheta (x0 (ix1 j)) k k' := by
  have e1 : ∀ k'' : Fin 16, idx_main_v33 (idx_main_v34 (idx_main_v35 (ix3 j k k'))) k'' = ix3 j k k'' := fun k'' =>
    funext fun a => Fin.ext (by match a with | ⟨0, _⟩ => rfl | ⟨1, _⟩ => rfl | ⟨2, _⟩ => rfl)
  rw [val_main_v37_apply, val_main_v36_apply, val_main_v35_apply, val_main_v34_apply, val_main_v33_apply,
    val_main_cst_5_apply, theta_apply]
  simp only [e1, theta_apply, Ideal.hostDivf_def, Ideal.hostUnary_log_def, Ideal.ofBits_def, Cert.Consts.ofBits_zero, zero_add]
  rfl

/-! ## The gather of one row per observation -/

/-- The start-indices index at which result row n reads component 0 of its start index: (n, 0). -/
theorem gather_siIdx0 (n : Fin 5000000) (k : Fin 16) (h : 0 < gather_S5000x16x16_S5000000x2_S5000000x16_1_02_n_n_02_1_1161.startIndexMap.length) :
    gather_S5000x16x16_S5000000x2_S5000000x16_1_02_n_n_02_1_1161.siIdx (ix2 n k) ⟨0, h⟩ = ix2 n 0 := by
  funext b; refine Fin.ext ?_
  match b with
  | ⟨0, _⟩ => rfl
  | ⟨1, _⟩ => rfl

/-- … and component 1: (n, 1). -/
theorem gather_siIdx1 (n : Fin 5000000) (k : Fin 16) (h : 1 < gather_S5000x16x16_S5000000x2_S5000000x16_1_02_n_n_02_1_1161.startIndexMap.length) :
    gather_S5000x16x16_S5000000x2_S5000000x16_1_02_n_n_02_1_1161.siIdx (ix2 n k) ⟨1, h⟩ = ix2 n 1 := by
  funext b; refine Fin.ext ?_
  match b with
  | ⟨0, _⟩ => rfl
  | ⟨1, _⟩ => rfl

/-- Operand axis 0 (the worker): the clamped first start index; the axis is collapsed, so no offset. -/
theorem gather_coord0 {w : Nat} (idx : IVec S5000000x2 w) (n : Fin 5000000) (k : Fin 16) :
    gather_S5000x16x16_S5000000x2_S5000000x16_1_02_n_n_02_1_1161.start (ix2 n k) idx ⟨0, by decide⟩ + gather_S5000x16x16_S5000000x2_S5000000x16_1_02_n_n_02_1_1161.batchCoord (ix2 n k) ⟨0, by decide⟩
        + gather_S5000x16x16_S5000000x2_S5000000x16_1_02_n_n_02_1_1161.offCoord (ix2 n k) ⟨0, by decide⟩
      = min (idx (ix2 n 0)).toInt.toNat 4999 := by
  rw [GatherDims.batchCoord_eq_zero gather_S5000x16x16_S5000000x2_S5000000x16_1_02_n_n_02_1_1161 (ix2 n k) ⟨0, by decide⟩ List.not_mem_nil,
    GatherDims.offCoord_eq_zero gather_S5000x16x16_S5000000x2_S5000000x16_1_02_n_n_02_1_1161 (ix2 n k) ⟨0, by decide⟩
      (fun h => ((GatherDims.mem_sKept gather_S5000x16x16_S5000000x2_S5000000x16_1_02_n_n_02_1_1161 ⟨0, by decide⟩).mp h).1 (by decide))]
  simp only [Nat.add_zero]
  unfold GatherDims.start
  rw [dif_pos (by decide)]
  exact congrArg (fun q => min (idx q).toInt.toNat 4999) (gather_siIdx0 n k _)

/-- Operand axis 1 (the class): the start index map does not name it, and it is the one offset axis. -/
theorem gather_coord1 {w : Nat} (idx : IVec S5000000x2 w) (n : Fin 5000000) (k : Fin 16) :
    gather_S5000x16x16_S5000000x2_S5000000x16_1_02_n_n_02_1_1161.start (ix2 n k) idx ⟨1, by decide⟩ + gather_S5000x16x16_S5000000x2_S5000000x16_1_02_n_n_02_1_1161.batchCoord (ix2 n k) ⟨1, by decide⟩
        + gather_S5000x16x16_S5000000x2_S5000000x16_1_02_n_n_02_1_1161.offCoord (ix2 n k) ⟨1, by decide⟩
      = k.val := by
  rw [GatherDims.batchCoord_eq_zero gather_S5000x16x16_S5000000x2_S5000000x16_1_02_n_n_02_1_1161 (ix2 n k) ⟨1, by decide⟩ List.not_mem_nil]
  simp only [Nat.add_zero]
  unfold GatherDims.start GatherDims.offCoord
  rw [dif_neg (by decide), dif_pos (by decide)]
  simp only [Nat.zero_add]
  rfl

/-- Operand axis 2 (the label): the clamped second start index; collapsed, so no offset. -/
theorem gather_coord2 {w : Nat} (idx : IVec S5000000x2 w) (n : Fin 5000000) (k : Fin 16) :
    gather_S5000x16x16_S5000000x2_S5000000x16_1_02_n_n_02_1_1161.start (ix2 n k) idx ⟨2, by decide⟩ + gather_S5000x16x16_S5000000x2_S5000000x16_1_02_n_n_02_1_1161.batchCoord (ix2 n k) ⟨2, by decide⟩
        + gather_S5000x16x16_S5000000x2_S5000000x16_1_02_n_n_02_1_1161.offCoord (ix2 n k) ⟨2, by decide⟩
      = min (idx (ix2 n 1)).toInt.toNat 15 := by
  rw [GatherDims.batchCoord_eq_zero gather_S5000x16x16_S5000000x2_S5000000x16_1_02_n_n_02_1_1161 (ix2 n k) ⟨2, by decide⟩ List.not_mem_nil,
    GatherDims.offCoord_eq_zero gather_S5000x16x16_S5000000x2_S5000000x16_1_02_n_n_02_1_1161 (ix2 n k) ⟨2, by decide⟩
      (fun h => ((GatherDims.mem_sKept gather_S5000x16x16_S5000000x2_S5000000x16_1_02_n_n_02_1_1161 ⟨2, by decide⟩).mp h).1 (by decide))]
  simp only [Nat.add_zero]
  unfold GatherDims.start
  rw [dif_pos (by decide)]
  exact congrArg (fun q => min (idx q).toInt.toNat 15) (gather_siIdx1 n k _)

/-- The gather read at (n, k): the table at the row and column the n-th start index names, each read signed and
    clamped into its axis, and at class k. -/
theorem gather_apply {α : Type} {w : Nat} (x : S5000x16x16.Idx → α) (idx : IVec S5000000x2 w) (n : Fin 5000000) (k : Fin 16) :
    Host.gather gather_S5000x16x16_S5000000x2_S5000000x16_1_02_n_n_02_1_1161 x idx (ix2 n k)
      = x (ix3 (⟨min (idx (ix2 n 0)).toInt.toNat 4999, by omega⟩ : Fin 5000) k
            (⟨min (idx (ix2 n 1)).toInt.toNat 15, by omega⟩ : Fin 16)) := by
  unfold Host.gather
  congr 1
  funext a
  refine Fin.ext ?_
  match a with
  | ⟨0, _⟩ => exact gather_coord0 idx n k
  | ⟨1, _⟩ => exact gather_coord1 idx n k
  | ⟨2, _⟩ => exact gather_coord2 idx n k

/-- Column 0 of the start indices: the worker index, wrapped once by the number of workers. -/
theorem starts_col0 (x2 x3 : (⟨S5000000, .i32⟩ : BufTy).Contents (Elt Ideal)) (n : Fin 5000000) :
    val_main_v50 (F := Ideal) x2 x3 (ix2 n 0) = Spec.wrapIdx 5000#32 (x2 (ix1 n)) := by
  have e : idx_main_v48 (ix2 n (0 : Fin 1)) = ix1 n :=
    funext fun a => Fin.ext (by match a with | ⟨0, _⟩ => rfl)
  unfold val_main_v50
  refine (concatenate_pair_apply_left (t := S5000000x2) (s₁ := S5000000x1) (s₂ := S5000000x1) (1 : Fin S5000000x2.rank)
    (val_main_v48 (F := Ideal) x2) (val_main_v49 (F := Ideal) x3) _ (ix2 n 0) rfl (ix2 n (0 : Fin 1)) ?_).trans ?_
  · intro b
    match b with
    | ⟨0, _⟩ => rfl
    | ⟨1, _⟩ => rfl
  · rw [val_main_v48_apply, e, val_main_v42_apply, val_main_v39_apply, val_main_v41_apply, val_main_v38_apply,
      val_main_c_6_apply, val_main_v40_apply, val_main_c_7_apply]
    rfl

/-- Column 1 of the start indices: the label, wrapped once by the number of classes. -/
theorem starts_col1 (x2 x3 : (⟨S5000000, .i32⟩ : BufTy).Contents (Elt Ideal)) (n : Fin 5000000) :
    val_main_v50 (F := Ideal) x2 x3 (ix2 n 1) = Spec.wrapIdx 16#32 (x3 (ix1 n)) := by
  have e : idx_main_v49 (ix2 n (0 : Fin 1)) = ix1 n :=
    funext fun a => Fin.ext (by match a with | ⟨0, _⟩ => rfl)
  unfold val_main_v50
  refine (concatenate_pair_apply_right (t := S5000000x2) (s₁ := S5000000x1) (s₂ := S5000000x1) (1 : Fin S5000000x2.rank)
    (val_main_v48 (F := Ideal) x2) (val_main_v49 (F := Ideal) x3) _ (ix2 n 1) rfl rfl (ix2 n (0 : Fin 1)) ?_ ?_).trans ?_
  · intro b
    match b with
    | ⟨0, _⟩ => exact fun _ => rfl
    | ⟨1, _⟩ => exact fun hne => absurd rfl hne
  · rfl
  · rw [val_main_v49_apply, e, val_main_v47_apply, val_main_v44_apply, val_main_v46_apply, val_main_v43_apply,
      val_main_c_8_apply, val_main_v45_apply, val_main_c_9_apply]
    rfl

/-- Row n of the gathered array is row k of the log-confusion table of the observation's worker, read at the
    observed label. -/
theorem gathered_apply (x0 : (⟨S5000, .f32⟩ : BufTy).Contents (Elt Ideal))
    (x2 x3 : (⟨S5000000, .i32⟩ : BufTy).Contents (Elt Ideal)) (n : Fin 5000000) (k : Fin 16) :
    val_main_v51 (F := Ideal) x0 x2 x3 (ix2 n k)
      = val_main_v37 (F := Ideal) x0 (ix3 (Spec.cj x2 n) k (Spec.cy x3 n)) := by
  unfold val_main_v51
  rw [gather_apply]
  simp only [starts_col0, starts_col1]
  rfl

/-! ## The scatter-add of the rows into the tasks -/

/-- An update lands on an element exactly when, on every axis, its start plus its window coordinate is that
    element's coordinate: the in-range test is then automatic. -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  constructor
  · intro h a
    split at h
    · next hall =>
      have hv : (d.start j idx a + (d.window j a : Int)).toNat = (r a).val :=
        congrArg Fin.val (congrFun (Option.some.inj h) a)
      have h0 := (hall a).1
      omega
    · cases h
  · intro h
    split
    · next hall =>
      congr 1; funext a; refine Fin.ext ?_
      show (d.start j idx a + (d.window j a : Int)).toNat = (r a).val
      have := h a; omega
    · next hnot =>
      exact absurd (fun a => by have := h a; have := (r a).isLt; constructor <;> omega) hnot

/-- The scatter-indices index at which update (n, k') reads its one start component: (n, 0). -/
theorem scatter_siIdx (n : Fin 5000000) (k' : Fin 16) (h : 0 < scatter_S500000x16_S5000000x1_S5000000x16_1_0_0_1.scatterDimsToOperandDims.length) :
    scatter_S500000x16_S5000000x1_S5000000x16_1_0_0_1.siIdx (ix2 n k') ⟨0, h⟩ = ix2 n 0 := by
  funext b; refine Fin.ext ?_
  match b with
  | ⟨0, _⟩ => rfl
  | ⟨1, _⟩ => rfl

/-- On the task axis the update's position is its scatter index read signed; the axis is inserted, so the window adds
    nothing. -/
theorem scatter_pos0 {w : Nat} (idx : IVec S5000000x1 w) (n : Fin 5000000) (k' : Fin 16) :
    scatter_S500000x16_S5000000x1_S5000000x16_1_0_0_1.start (ix2 n k') idx ⟨0, by decide⟩ + ((scatter_S500000x16_S5000000x1_S5000000x16_1_0_0_1.window (ix2 n k') ⟨0, by decide⟩ : Nat) : Int)
      = (idx (ix2 n 0)).toInt := by
  unfold ScatterDims.start ScatterDims.window
  rw [dif_pos (by decide), dif_neg (by decide)]
  exact (Int.add_zero _).trans (congrArg (fun q => (idx q).toInt) (scatter_siIdx n k' _))

/-- On the class axis there is no start, and the window coordinate is the update's class. -/
theorem scatter_pos1 {w : Nat} (idx : IVec S5000000x1 w) (n : Fin 5000000) (k' : Fin 16) :
    scatter_S500000x16_S5000000x1_S5000000x16_1_0_0_1.start (ix2 n k') idx ⟨1, by decide⟩ + ((scatter_S500000x16_S5000000x1_S5000000x16_1_0_0_1.window (ix2 n k') ⟨1, by decide⟩ : Nat) : Int)
      = (k'.val : Int) := by
  unfold ScatterDims.start ScatterDims.window
  rw [dif_neg (by decide), dif_pos (by decide)]
  exact Int.zero_add _

/-- Update (n, k') lands on element (i, k) exactly when observation n's scatter index is i and k' = k. -/
theorem scatter_lands_iff {w : Nat} (idx : IVec S5000000x1 w) (n : Fin 5000000) (k' : Fin 16) (i : Fin 500000)
    (k : Fin 16) :
    scatter_S500000x16_S5000000x1_S5000000x16_1_0_0_1.resultIdx? (ix2 n k') idx = some (ix2 i k)
      ↔ (idx (ix2 n 0)).toInt = (i.val : Int) ∧ k' = k := by
  rw [resultIdx?_eq_some_iff]
  constructor
  · intro h
    have h0 := h ⟨0, by decide⟩
    have h1 := h ⟨1, by decide⟩
    rw [scatter_pos0] at h0
    rw [scatter_pos1] at h1
    have h1' : (k'.val : Int) = (k.val : Int) := h1
    exact ⟨h0, Fin.ext (by omega)⟩
  · rintro ⟨hT, hk⟩ a
    match a with
    | ⟨0, _⟩ => exact (scatter_pos0 idx n k').trans hT
    | ⟨1, _⟩ =>
      refine (scatter_pos1 idx n k').trans ?_
      show (k'.val : Int) = (k.val : Int)
      rw [hk]

/-- The scatter-add read at (i, k): the initial value plus the sum, over the observations whose scatter index is i, of
    the update's entry of class k. -/
theorem scatter_sum {w : Nat} (init : S500000x16.Idx → EReal) (idx : IVec S5000000x1 w) (upd : S5000000x16.Idx → EReal)
    (i : Fin 500000) (k : Fin 16) :
    Ideal.hostScatterAdd scatter_S500000x16_S5000000x1_S5000000x16_1_0_0_1 init idx upd (ix2 i k)
      = init (ix2 i k)
        + ∑ n ∈ Finset.univ.filter (fun n : Fin 5000000 => (idx (ix2 n 0)).toInt = (i.val : Int)), upd (ix2 n k) := by
  unfold Ideal.hostScatterAdd
  refine congrArg (init (ix2 i k) + ·) ?_
  rw [Finset.sum_filter, sum_idx2, Finset.sum_filter]
  refine Finset.sum_congr rfl fun n _ => ?_
  simp only [scatter_lands_iff]
  by_cases hT : (idx (ix2 n 0)).toInt = (i.val : Int)
  · simp [hT, Finset.sum_ite_eq']
  · simp [hT]

/-- The same, for the host operation as the program spells it. -/
theorem scatterAdd_read {w : Nat} (init : S500000x16.Idx → EReal) (idx : IVec S5000000x1 w) (upd : S5000000x16.Idx → EReal)
    (i : Fin 500000) (k : Fin 16) :
    Host.scatterAdd (F := Ideal) (φ := .f32) scatter_S500000x16_S5000000x1_S5000000x16_1_0_0_1 init idx upd (ix2 i k)
      = init (ix2 i k)
        + ∑ n ∈ Finset.univ.filter (fun n : Fin 5000000 => (idx (ix2 n 0)).toInt = (i.val : Int)), upd (ix2 n k) := by
  simp only [Host.scatterAdd, Ideal.hostScatterAdd_def]
  exact scatter_sum init idx upd i k

/-! ## The assembly -/

/-- Entry (i, k) of the scatter-added table is the sum, over the observations of task i, of the observation's worker's
    log-confusion row k read at the observed label. -/
theorem cll_apply (x0 : (⟨S5000, .f32⟩ : BufTy).Contents (Elt Ideal)) (x1 x2 x3 : (⟨S5000000, .i32⟩ : BufTy).Contents (Elt Ideal))
    (i : Fin 500000) (k : Fin 16) :
    val_main_v54 (F := Ideal) x0 x1 x2 x3 (ix2 i k) = Spec.cll x0 x1 x2 x3 i k := by
  -- the scatter indices: entry (n, 0) is the task of observation n
  have e : ∀ n : Fin 5000000, val_main_v53 (F := Ideal) x1 (ix2 n 0) = x1 (ix1 n) := fun n => by
    rw [val_main_v53_apply]
    exact congrArg x1 (funext fun a => Fin.ext (by match a with | ⟨0, _⟩ => rfl))
  -- the updates: row n is the gathered row of the table
  have hupd : ∀ n : Fin 5000000, val_main_v51 (F := Ideal) x0 x2 x3 (ix2 n k)
      = Spec.logTheta (x0 (ix1 (Spec.cj x2 n))) k (Spec.cy x3 n) := fun n => by
    rw [gathered_apply, logTheta_apply]
  -- the initial value: zero
  have hz : val_main_v52 (F := Ideal) (ix2 i k) = (0 : EReal) := by
    rw [val_main_v52_apply, val_main_cst_10_apply, Ideal.ofBits_def, Cert.Consts.ofBits_zero]
  unfold val_main_v54
  generalize val_main_v51 (F := Ideal) x0 x2 x3 = upd at hupd ⊢
  generalize val_main_v53 (F := Ideal) x1 = idx at e ⊢
  generalize val_main_v52 (F := Ideal) = z at hz ⊢
  rw [scatterAdd_read, hz, zero_add]
  unfold Spec.cll
  exact Finset.sum_congr (Finset.filter_congr fun n _ => by rw [e n]) fun n _ => hupd n

end Cert.RefCll

end
-- ==== Proof.RowMath.lean ====
/-
  Real-number facts about one worker's numbers and one task's row, pushed through the embedding
  of the reals into the extended reals.

  With s = 1/(1+e^{-r}) and n = 1/(1+e^{r}) one has s + n = 1 and both are positive, so every
  confusion-matrix entry (s·[k=k'] + n/16)/2 is positive and each row sums to 1/2; the log of the
  normalised entry is therefore log(n/16) off the diagonal and log(s + n/16) on it.  A softmax is
  unchanged by adding one real number to the whole row, its weights add up to 1, and this turns
  Σ q·(b + d) − Σ q·log q into b + Σ q·(d − log q).
-/
import proofs.«142230_j22256520528420_2_alg».proof.Proof.Spec

noncomputable section

open scoped BigOperators

namespace Cert.RowMath

open Idealize.ShloMosaic

/-! ## Coercion helpers -/

/-- A finite sum of embedded reals is the embedded real sum. -/
private theorem coe_sum {ι : Type} (s : Finset ι) (f : ι → ℝ) :
    ∑ k ∈ s, ((f k : ℝ) : EReal) = ((∑ k ∈ s, f k : ℝ) : EReal) := by
  classical
  refine Finset.induction_on s ?_ ?_
  · simp
  · intro a t ha ih
    rw [Finset.sum_insert ha, Finset.sum_insert ha, ih, EReal.coe_add]

/-- Dividing an embedded real by a nonzero embedded real is the embedded quotient. -/
private theorem div_real (a : ℝ) {b : ℝ} (hb : b ≠ 0) :
    Ideal.div (a : EReal) (b : EReal) = ((a / b : ℝ) : EReal) := by
  rw [Ideal.div_coe hb, ← EReal.coe_mul, mul_one_div]

/-- The log of an embedded positive real is the embedded real log. -/
private theorem log_real {a : ℝ} (ha : 0 < a) : Ideal.log (a : EReal) = ((Real.log a : ℝ) : EReal) := by
  rw [Ideal.log_coe, if_neg (not_le.mpr ha)]

/-! ## One worker's numbers over the reals -/

/-- s = 1/(1+e^{-r}). -/
private def sR (r : ℝ) : ℝ := 1 / (1 + Real.exp (-r))
/-- n = 1/(1+e^{r}). -/
private def nR (r : ℝ) : ℝ := 1 / (1 + Real.exp r)

private theorem sR_pos (r : ℝ) : 0 < sR r := by unfold sR; positivity
private theorem nR_pos (r : ℝ) : 0 < nR r := by unfold nR; positivity

/-- s + n = 1. -/
private theorem sR_add_nR (r : ℝ) : sR r + nR r = 1 := by
  unfold sR nR
  have hE : 0 < Real.exp r := Real.exp_pos r
  rw [Real.exp_neg]
  field_simp
  ring

private theorem sig_coe (r : ℝ) : Spec.sig (r : EReal) = ((sR r : ℝ) : EReal) := by
  have hpos : (0 : ℝ) < 1 + Real.exp (-r) := by positivity
  unfold Spec.sig sR
  rw [← EReal.coe_neg, Ideal.exp_coe, ← EReal.coe_one, ← EReal.coe_add, div_real _ hpos.ne']

private theorem nsig_coe (r : ℝ) : Spec.nsig (r : EReal) = ((nR r : ℝ) : EReal) := by
  have hpos : (0 : ℝ) < 1 + Real.exp r := by positivity
  unfold Spec.nsig nR
  rw [← EReal.coe_neg, ← EReal.coe_neg, neg_neg, Ideal.exp_coe, ← EReal.coe_one, ← EReal.coe_add,
    div_real _ hpos.ne']

private theorem sixteen_ne : (16 : ℝ) ≠ 0 := by norm_num
private theorem two_ne : (2 : ℝ) ≠ 0 := by norm_num

private theorem base_coe (r : ℝ) : Spec.base (r : EReal) = ((Real.log (nR r / 16) : ℝ) : EReal) := by
  have hpos : 0 < nR r / 16 := div_pos (nR_pos r) (by norm_num)
  unfold Spec.base
  rw [nsig_coe, div_real _ sixteen_ne, log_real hpos]

private theorem diff_coe (r : ℝ) :
    Spec.diff (r : EReal) = ((Real.log (sR r + nR r / 16) - Real.log (nR r / 16) : ℝ) : EReal) := by
  have hn : 0 < nR r / 16 := div_pos (nR_pos r) (by norm_num)
  have hpos : 0 < sR r + nR r / 16 := add_pos (sR_pos r) hn
  unfold Spec.diff
  rw [base_coe, sig_coe, nsig_coe, div_real _ sixteen_ne, ← EReal.coe_add, log_real hpos, ← EReal.coe_sub]

theorem base_real (r : ℝ) : ∃ b : ℝ, Spec.base (r : EReal) = (b : EReal) := ⟨_, base_coe r⟩

theorem diff_real (r : ℝ) : ∃ d : ℝ, Spec.diff (r : EReal) = (d : EReal) := ⟨_, diff_coe r⟩

/-- The confusion-matrix entry over the reals. -/
private def thetaR (r : ℝ) (k k' : Fin 16) : ℝ :=
  (sR r * (if k = k' then (1 : ℝ) else 0) + nR r * (1 / 16)) / 2

private theorem theta_coe (r : ℝ) (k k' : Fin 16) :
    Spec.theta (r : EReal) k k' = ((thetaR r k k' : ℝ) : EReal) := by
  have hite : (if k = k' then (1 : EReal) else 0) = (((if k = k' then (1 : ℝ) else 0) : ℝ) : EReal) := by
    by_cases h : k = k'
    · rw [if_pos h, if_pos h, EReal.coe_one]
    · rw [if_neg h, if_neg h, EReal.coe_zero]
  unfold Spec.theta thetaR
  rw [sig_coe, nsig_coe, hite, ← EReal.coe_mul, ← EReal.coe_mul, ← EReal.coe_add, div_real _ two_ne]

/-- Each row of the matrix sums to (s + n)/2 = 1/2. -/
private theorem thetaR_row_sum (r : ℝ) (k : Fin 16) : ∑ k'' : Fin 16, thetaR r k k'' = 1 / 2 := by
  unfold thetaR
  rw [← Finset.sum_div, Finset.sum_add_distrib, ← Finset.mul_sum, Finset.sum_ite_eq,
    if_pos (Finset.mem_univ k), Finset.sum_const, Finset.card_univ, Fintype.card_fin, nsmul_eq_mul]
  have h := sR_add_nR r
  have : sR r * 1 + ((16 : ℕ) : ℝ) * (nR r * (1 / 16)) = sR r + nR r := by
    push_cast; ring
  rw [this, h]

/-- The normalised entry is s·[k=k'] + n/16. -/
private theorem thetaR_div (r : ℝ) (k k' : Fin 16) :
    thetaR r k k' / (1 / 2) = (if k = k' then sR r + nR r / 16 else nR r / 16) := by
  unfold thetaR
  by_cases h : k = k'
  · rw [if_pos h, if_pos h]; ring
  · rw [if_neg h, if_neg h]; ring

private theorem half_ne : (1 / 2 : ℝ) ≠ 0 := by norm_num

/-- σ + ν = 1 makes each row of θ sum to 1/2, so the normalised entry is σ·[k=k'] + ν/16. -/
theorem logTheta_eq (r : ℝ) (k k' : Fin 16) :
    Spec.logTheta (r : EReal) k k' = Spec.base (r : EReal) + (if k = k' then Spec.diff (r : EReal) else 0) := by
  have hn : 0 < nR r / 16 := div_pos (nR_pos r) (by norm_num)
  have hd : 0 < sR r + nR r / 16 := add_pos (sR_pos r) hn
  have hsum : (∑ k'' : Fin 16, Spec.theta (r : EReal) k k'') = (((1 / 2 : ℝ) : ℝ) : EReal) := by
    rw [← thetaR_row_sum r k, ← coe_sum]
    exact Finset.sum_congr rfl (fun k'' _ => theta_coe r k k'')
  unfold Spec.logTheta
  rw [hsum, theta_coe, div_real _ half_ne, thetaR_div, base_coe, diff_coe]
  by_cases h : k = k'
  · rw [if_pos h, if_pos h, log_real hd, ← EReal.coe_add]
    congr 1; ring
  · rw [if_neg h, if_neg h, log_real hn, add_zero]

/-! ## One task's row over the reals -/

/-- A row of embedded reals whose greatest entry is M has row maximum M. -/
private theorem rowMax_coe (d : Fin 16 → ℝ) (M : ℝ) (hle : ∀ k, d k ≤ M) (hex : ∃ k, d k = M) :
    Spec.rowMax (fun k => (d k : EReal)) = (M : EReal) := by
  unfold Spec.rowMax
  apply le_antisymm
  · exact Finset.sup_le (fun k _ => EReal.coe_le_coe_iff.mpr (hle k))
  · obtain ⟨k, hk⟩ := hex
    rw [← hk]
    exact Finset.le_sup (f := fun k => (d k : EReal)) (Finset.mem_univ k)

/-- Sixteen reals have a greatest one. -/
private theorem exists_max (d : Fin 16 → ℝ) : ∃ M : ℝ, (∀ k, d k ≤ M) ∧ ∃ k, d k = M := by
  obtain ⟨k, _, hk⟩ := Finset.exists_mem_eq_sup' (Finset.univ_nonempty (α := Fin 16)) d
  exact ⟨Finset.univ.sup' Finset.univ_nonempty d,
    fun j => Finset.le_sup' d (Finset.mem_univ j), ⟨k, hk.symm⟩⟩

/-- The real log-softmax entry, given the row maximum M. -/
private def lsmR (d : Fin 16 → ℝ) (M : ℝ) (k : Fin 16) : ℝ :=
  (d k - M) - Real.log (∑ k' : Fin 16, Real.exp (d k' - M))

private theorem lsm_coe (d : Fin 16 → ℝ) (M : ℝ) (hle : ∀ k, d k ≤ M) (hex : ∃ k, d k = M) (k : Fin 16) :
    Spec.lsm (fun k => (d k : EReal)) k = ((lsmR d M k : ℝ) : EReal) := by
  have hZ : 0 < ∑ k' : Fin 16, Real.exp (d k' - M) :=
    Finset.sum_pos (fun k' _ => Real.exp_pos _) Finset.univ_nonempty
  have hsum : (∑ k' : Fin 16, Ideal.exp ((d k' : EReal) - (M : EReal)))
      = ((∑ k' : Fin 16, Real.exp (d k' - M) : ℝ) : EReal) := by
    rw [← coe_sum]
    exact Finset.sum_congr rfl (fun k' _ => by rw [← EReal.coe_sub, Ideal.exp_coe])
  unfold Spec.lsm lsmR
  rw [rowMax_coe d M hle hex, hsum, log_real hZ, ← EReal.coe_sub, ← EReal.coe_sub]

/-- The shift b cancels in every difference d_k − max. -/
private theorem lsmR_shift (b : ℝ) (d : Fin 16 → ℝ) (M : ℝ) (k : Fin 16) :
    lsmR (fun k' => b + d k') (b + M) k = lsmR d M k := by
  unfold lsmR
  simp only [add_sub_add_left_eq_sub]

private theorem lsm_shift (b : ℝ) (d : Fin 16 → ℝ) (k : Fin 16) :
    Spec.lsm (fun k' => (b : EReal) + (d k' : EReal)) k = Spec.lsm (fun k' => (d k' : EReal)) k := by
  obtain ⟨M, hle, j, hj⟩ := exists_max d
  have hfun : (fun k' => (b : EReal) + (d k' : EReal)) = fun k' => (((b + d k' : ℝ)) : EReal) := by
    funext k'; rw [EReal.coe_add]
  rw [hfun, lsm_coe (fun k' => b + d k') (b + M) (fun k' => by linarith [hle k']) ⟨j, by rw [hj]⟩ k,
    lsm_coe d M hle ⟨j, hj⟩ k, lsmR_shift]

/-- The softmax does not see a shift common to the row. -/
theorem qz_shift (b : ℝ) (d : Fin 16 → ℝ) (k : Fin 16) :
    Spec.qz (fun k' => (b : EReal) + (d k' : EReal)) k = Spec.qz (fun k' => (d k' : EReal)) k := by
  unfold Spec.qz
  rw [lsm_shift]

/-- The softmax weights add up to 1. -/
private theorem exp_lsmR_sum (d : Fin 16 → ℝ) (M : ℝ) : ∑ k : Fin 16, Real.exp (lsmR d M k) = 1 := by
  have hZ : 0 < ∑ k' : Fin 16, Real.exp (d k' - M) :=
    Finset.sum_pos (fun k' _ => Real.exp_pos _) Finset.univ_nonempty
  unfold lsmR
  simp only [Real.exp_sub (_ - _) (Real.log _), Real.exp_log hZ]
  rw [← Finset.sum_div, div_self hZ.ne']

/-- Σ q·(b + d) − Σ q·log q = b + Σ q·(d − log q), because Σ q = 1. -/
theorem vq_shift (b : ℝ) (d : Fin 16 → ℝ) :
    Spec.vqRef (fun k' => (b : EReal) + (d k' : EReal)) = Spec.vqKer (b : EReal) (fun k' => (d k' : EReal)) := by
  obtain ⟨M, hle, hex⟩ := exists_max d
  have hq : ∀ k, Spec.qz (fun k' => (d k' : EReal)) k = ((Real.exp (lsmR d M k) : ℝ) : EReal) := by
    intro k
    unfold Spec.qz
    rw [lsm_coe d M hle hex k, Ideal.exp_coe]
  have hl : ∀ k, Spec.lsm (fun k' => (d k' : EReal)) k = ((lsmR d M k : ℝ) : EReal) :=
    fun k => lsm_coe d M hle hex k
  have h1 : (∑ k : Fin 16, Spec.qz (fun k' => (b : EReal) + (d k' : EReal)) k * ((b : EReal) + (d k : EReal)))
      = ((∑ k : Fin 16, Real.exp (lsmR d M k) * (b + d k) : ℝ) : EReal) := by
    rw [← coe_sum]
    exact Finset.sum_congr rfl (fun k _ => by rw [qz_shift, hq, ← EReal.coe_add, ← EReal.coe_mul])
  have h2 : (∑ k : Fin 16, Spec.qz (fun k' => (b : EReal) + (d k' : EReal)) k
        * Spec.lsm (fun k' => (b : EReal) + (d k' : EReal)) k)
      = ((∑ k : Fin 16, Real.exp (lsmR d M k) * lsmR d M k : ℝ) : EReal) := by
    rw [← coe_sum]
    exact Finset.sum_congr rfl (fun k _ => by rw [qz_shift, lsm_shift, hq, hl, ← EReal.coe_mul])
  have h3 : (∑ k : Fin 16, Spec.qz (fun k' => (d k' : EReal)) k
        * ((d k : EReal) - Spec.lsm (fun k' => (d k' : EReal)) k))
      = ((∑ k : Fin 16, Real.exp (lsmR d M k) * (d k - lsmR d M k) : ℝ) : EReal) := by
    rw [← coe_sum]
    exact Finset.sum_congr rfl (fun k _ => by rw [hq, hl, ← EReal.coe_sub, ← EReal.coe_mul])
  have hone := exp_lsmR_sum d M
  have hreal : (∑ k : Fin 16, Real.exp (lsmR d M k) * (b + d k))
        - (∑ k : Fin 16, Real.exp (lsmR d M k) * lsmR d M k)
      = b + ∑ k : Fin 16, Real.exp (lsmR d M k) * (d k - lsmR d M k) := by
    simp only [mul_add, mul_sub, Finset.sum_add_distrib, Finset.sum_sub_distrib, ← Finset.sum_mul, hone]
    ring
  unfold Spec.vqRef Spec.vqKer
  rw [h1, h2, h3, ← EReal.coe_sub, ← EReal.coe_add, hreal]

end Cert.RowMath

end
-- ==== Proof.SumSplit.lean ====
import proofs.«142230_j22256520528420_2_alg».proof.Proof.Spec

open scoped BigOperators
open Idealize.ShloMosaic Idealize.ShloMosaic.ValueIdx

namespace Cert.SumSplit

/-- A word that reads as a non-negative integer is left alone by the index wrap. -/
theorem wrapIdx_of_nonneg (sz v : BitVec 32) (h : 0 ≤ v.toInt) : Spec.wrapIdx sz v = v := by
  have hs : v.slt 0#32 = false := by
    simp [BitVec.slt, h]
  unfold Spec.wrapIdx Scalar.select IntOp.cmpi
  simp [hs]

/-- With a in [0, 500000) and b in [0, 16) the 32-bit value 16·a + b does not wrap. -/
theorem toInt_mul16_add (a b : BitVec 32) (ha : 0 ≤ a.toInt ∧ a.toInt < 500000)
    (hb : 0 ≤ b.toInt ∧ b.toInt < 16) :
    (IntOp.addi (IntOp.muli a 16#32) b).toInt = 16 * a.toInt + b.toInt := by
  obtain ⟨ha0, ha1⟩ := ha
  obtain ⟨hb0, hb1⟩ := hb
  have h16 : (16#32).toInt = 16 := by decide
  have h1 : (a.toInt * 16).bmod (2 ^ 32) = a.toInt * 16 :=
    Int.bmod_eq_of_le_mul_two (by omega) (by omega)
  have h2 : (a.toInt * 16 + b.toInt).bmod (2 ^ 32) = a.toInt * 16 + b.toInt :=
    Int.bmod_eq_of_le_mul_two (by omega) (by omega)
  unfold IntOp.addi IntOp.muli
  rw [BitVec.toInt_add, BitVec.toInt_mul, h16, h1, h2]
  omega

/-- Under a label in [0, 16) the clamped label column is the label itself. -/
theorem cy_val (y : Spec.SN.Idx → BitVec 32) (n : Fin 5000000)
    (hy : 0 ≤ (y (ix1 n)).toInt ∧ (y (ix1 n)).toInt < 16) :
    ((Spec.cy y n).val : Int) = (y (ix1 n)).toInt := by
  have hv : (Spec.cy y n).val = min (Spec.wrapIdx 16#32 (y (ix1 n))).toInt.toNat 15 := rfl
  rw [hv, wrapIdx_of_nonneg _ _ hy.1]
  omega

/-- "task i and label k" is the same as "flat index 16·i + k". -/
theorem filter_iff (ii y : Spec.SN.Idx → BitVec 32)
    (hii : ∀ n, 0 ≤ (ii n).toInt ∧ (ii n).toInt < 500000)
    (hy : ∀ n, 0 ≤ (y n).toInt ∧ (y n).toInt < 16)
    (i : Fin 500000) (k : Fin 16) (n : Fin 5000000) :
    ((ii (ix1 n)).toInt = (i.val : Int) ∧ k = Spec.cy y n) ↔
      (IntOp.addi (IntOp.muli (ii (ix1 n)) 16#32) (y (ix1 n))).toInt = ((16 * i.val + k.val : Nat) : Int) := by
  rw [toInt_mul16_add _ _ (hii _) (hy _)]
  have hc := cy_val y n (hy _)
  have hk := k.isLt
  have hyn := hy (ix1 n)
  have hin := hii (ix1 n)
  rw [Fin.ext_iff]
  push_cast
  constructor
  · rintro ⟨h1, h2⟩
    omega
  · intro h
    constructor <;> omega

/-- A finite sum of real numbers, read in the extended reals, is the real sum. -/
theorem sum_coe {ι : Type*} (s : Finset ι) (f : ι → ℝ) :
    ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

/-- A sum of "b plus d when c holds" is the sum of b plus the sum of d over the part where c holds. -/
theorem sum_split {ι : Type*} (s t : Finset ι) (c : ι → Prop) [DecidablePred c] (b d : ι → EReal)
    (ht : s.filter c = t) :
    ∑ n ∈ s, (b n + if c n then d n else 0) = ∑ n ∈ s, b n + ∑ n ∈ t, d n := by
  subst ht
  rw [Finset.sum_add_distrib, Finset.sum_filter]

/-- Under labels in [0,16) and task ids in [0,500000), an observation of task i contributes its worker's `base` to every class and
    its worker's `diff` to the class of its label; and "16·ii + y = 16·i + k" says exactly "ii = i and y = k". -/
theorem cll_eq (x : Spec.SW.Idx → EReal) (ii jj y : Spec.SN.Idx → BitVec 32)
    (hL : ∀ (j : Spec.SW.Idx) (k k' : Fin 16), Spec.logTheta (x j) k k' = Spec.base (x j) + (if k = k' then Spec.diff (x j) else 0))
    (hii : ∀ n, 0 ≤ (ii n).toInt ∧ (ii n).toInt < 500000)
    (hy : ∀ n, 0 ≤ (y n).toInt ∧ (y n).toInt < 16)
    (i : Fin 500000) (k : Fin 16) :
    Spec.cll x ii jj y i k = Spec.Bsum x ii jj i + Spec.Dsum x ii jj y i k := by
  unfold Spec.cll Spec.Bsum Spec.Dsum
  refine (Finset.sum_congr rfl (fun n _ => hL (ix1 (Spec.cj jj n)) k (Spec.cy y n))).trans ?_
  refine sum_split _ _ (fun n => k = Spec.cy y n) (fun n => Spec.base (x (ix1 (Spec.cj jj n))))
    (fun n => Spec.diff (x (ix1 (Spec.cj jj n)))) ?_
  ext n
  simp only [Finset.mem_filter, Finset.mem_univ, true_and]
  exact filter_iff ii y hii hy i k n

/-- A finite sum of reals is a real. -/
theorem Bsum_real (x : Spec.SW.Idx → EReal) (ii jj : Spec.SN.Idx → BitVec 32) (hb : ∀ j, ∃ b : ℝ, Spec.base (x j) = (b : EReal)) (i : Fin 500000) :
    ∃ b : ℝ, Spec.Bsum x ii jj i = (b : EReal) := by
  choose f hf using hb
  unfold Spec.Bsum
  exact ⟨_, by rw [Finset.sum_congr rfl (fun n _ => hf (ix1 (Spec.cj jj n)))]; exact sum_coe _ _⟩

theorem Dsum_real (x : Spec.SW.Idx → EReal) (ii jj y : Spec.SN.Idx → BitVec 32) (hd : ∀ j, ∃ d : ℝ, Spec.diff (x j) = (d : EReal)) (i : Fin 500000) (k : Fin 16) :
    ∃ d : ℝ, Spec.Dsum x ii jj y i k = (d : EReal) := by
  choose f hf using hd
  unfold Spec.Dsum
  exact ⟨_, by rw [Finset.sum_congr rfl (fun n _ => hf (ix1 (Spec.cj jj n)))]; exact sum_coe _ _⟩

end Cert.SumSplit
-- ==== Proof.Bridge.lean ====
/-
  The two programs' rows meet.

  Under the precondition every worker's logit is a real number, every task id is in [0, 500000) and every label is in
  [0, 16).  Then task i's log-likelihood row is  cll_k = B + D_k  with B and the D_k real numbers (the sums of the
  workers' `base` over the task's observations, and of their `diff` over those labelled k).  A softmax does not see the
  common shift B, and because the posterior sums to one the reference's  Σ q·cll − Σ q·log q  is the kernel's
  B + Σ q·(D − log q).
-/
import proofs.«142230_j22256520528420_2_alg».proof.Proof.RowMath
import proofs.«142230_j22256520528420_2_alg».proof.Proof.SumSplit

noncomputable section

namespace Cert.Bridge

open Idealize.ShloMosaic

variable (x : Spec.SW.Idx → EReal) (ii jj y : Spec.SN.Idx → BitVec 32)

/-- Task i's row as real numbers: B, the D_k, and cll_k = B + D_k. -/
theorem row_real (hx : ∀ j, ∃ r : ℝ, x j = (r : EReal))
    (hii : ∀ n, 0 ≤ (ii n).toInt ∧ (ii n).toInt < 500000) (hy : ∀ n, 0 ≤ (y n).toInt ∧ (y n).toInt < 16) (i : Fin 500000) :
    ∃ (b : ℝ) (d : Fin 16 → ℝ), Spec.Bsum x ii jj i = (b : EReal) ∧ (∀ k, Spec.Dsum x ii jj y i k = (d k : EReal))
      ∧ ∀ k, Spec.cll x ii jj y i k = (b : EReal) + (d k : EReal) := by
  have hL : ∀ (j : Spec.SW.Idx) (k k' : Fin 16),
      Spec.logTheta (x j) k k' = Spec.base (x j) + (if k = k' then Spec.diff (x j) else 0) := fun j k k' => by
    obtain ⟨r, hr⟩ := hx j
    rw [hr]
    exact RowMath.logTheta_eq r k k'
  have hb : ∀ j, ∃ b : ℝ, Spec.base (x j) = (b : EReal) := fun j => by
    obtain ⟨r, hr⟩ := hx j
    rw [hr]
    exact RowMath.base_real r
  have hd : ∀ j, ∃ d : ℝ, Spec.diff (x j) = (d : EReal) := fun j => by
    obtain ⟨r, hr⟩ := hx j
    rw [hr]
    exact RowMath.diff_real r
  obtain ⟨b, hB⟩ := SumSplit.Bsum_real x ii jj hb i
  choose d hD using fun k => SumSplit.Dsum_real x ii jj y hd i k
  refine ⟨b, d, hB, hD, fun k => ?_⟩
  rw [SumSplit.cll_eq x ii jj y hL hii hy i k, hB, hD k]

/-- The posterior of the log-likelihood row is the posterior of its class-dependent part. -/
theorem qz_eq (hx : ∀ j, ∃ r : ℝ, x j = (r : EReal))
    (hii : ∀ n, 0 ≤ (ii n).toInt ∧ (ii n).toInt < 500000) (hy : ∀ n, 0 ≤ (y n).toInt ∧ (y n).toInt < 16) (i : Fin 500000) (k : Fin 16) :
    Spec.qz (fun k' => Spec.cll x ii jj y i k') k = Spec.qz (fun k' => Spec.Dsum x ii jj y i k') k := by
  obtain ⟨b, d, _, hD, hC⟩ := row_real x ii jj y hx hii hy i
  rw [show (fun k' => Spec.cll x ii jj y i k') = fun k' => (b : EReal) + (d k' : EReal) from funext hC,
    show (fun k' => Spec.Dsum x ii jj y i k') = fun k' => (d k' : EReal) from funext hD]
  exact RowMath.qz_shift b d k

/-- The reference's value of the row is the kernel's. -/
theorem vq_eq (hx : ∀ j, ∃ r : ℝ, x j = (r : EReal))
    (hii : ∀ n, 0 ≤ (ii n).toInt ∧ (ii n).toInt < 500000) (hy : ∀ n, 0 ≤ (y n).toInt ∧ (y n).toInt < 16) (i : Fin 500000) :
    Spec.vqRef (fun k' => Spec.cll x ii jj y i k') = Spec.vqKer (Spec.Bsum x ii jj i) (fun k' => Spec.Dsum x ii jj y i k') := by
  obtain ⟨b, d, hB, hD, hC⟩ := row_real x ii jj y hx hii hy i
  rw [show (fun k' => Spec.cll x ii jj y i k') = fun k' => (b : EReal) + (d k' : EReal) from funext hC,
    show (fun k' => Spec.Dsum x ii jj y i k') = fun k' => (d k' : EReal) from funext hD, hB]
  exact RowMath.vq_shift b d

end Cert.Bridge

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.PreFacts.lean ====
/-
  The precondition read entry by entry.

  The precondition is the conjunction of five "for all entries" tests: every logit has absolute value
  below +∞, every task index lies in [0, 500000) and every label lies in [0, 16), the integers read
  as signed words.  A conjunction that is true has true conjuncts; a test over all entries that is
  true holds at each entry; a logit whose absolute value is below +∞ is a real number; and a signed
  comparison bit that is set says the corresponding inequality of the signed readings.
-/
import proofs.«142230_j22256520528420_2_alg».proof.Proof.Gen.Pre_finite_inputs
import Idealize.ShloMosaic.Lib.ReduceAll
import Idealize.ShloMosaic.Lib.ValueIdx
import Idealize.ShloMosaic.Lib.Affine
import proofs.«142230_j22256520528420_2_alg».proof.Proof.LibFiniteEntry

noncomputable section

namespace Cert.PreFacts

open Idealize.ShloMosaic

variable [Cert.Pre_finite_inputs.Facts]

/-- The rank-0 shape has exactly one index. -/
instance : Subsingleton Cert.Pre_finite_inputs.S_.Idx := ⟨fun a b => funext fun d => d.elim0⟩

private theorem toInt_zero32 : (0#32 : BitVec 32).toInt = 0 := by decide
private theorem toInt_500000 : (500000#32 : BitVec 32).toInt = 500000 := by decide
private theorem toInt_16 : (16#32 : BitVec 32).toInt = 16 := by decide

/-- Every logit is a real number, every task index is in [0, 500000), every label is in [0, 16). -/
theorem decode (x : FVec Ideal Cert.Pre_finite_inputs.S5000 .f32) (ii jj y : IVec Cert.Pre_finite_inputs.S5000000 32)
    (h : Cert.Pre_finite_inputs.fn (F := Ideal) x ii jj y = (fun _ => 1#1)) :
    (∀ j : Cert.Pre_finite_inputs.S5000.Idx, ∃ r : ℝ, x j = (r : EReal))
    ∧ (∀ n : Cert.Pre_finite_inputs.S5000000.Idx, 0 ≤ (ii n).toInt ∧ (ii n).toInt < 500000)
    ∧ (∀ n : Cert.Pre_finite_inputs.S5000000.Idx, 0 ≤ (y n).toInt ∧ (y n).toInt < 16) := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨hx, hi0⟩, hi1⟩, hy0⟩, hy1⟩ := h0
  refine ⟨fun j => ?_, fun n => ⟨?_, ?_⟩, fun n => ⟨?_, ?_⟩⟩
  · have e := Host.reduce_andi_all _ _ _ _ _ hx j
    exact Ideal.real_of_abs_lt_inf (x j) e
  · have e := Host.reduce_andi_all _ _ _ _ _ hi0 n
    have e' := (IntOp.cmpi_sge (x := ii n) (y := 0#32)).mp e
    rwa [toInt_zero32] at e'
  · have e := Host.reduce_andi_all _ _ _ _ _ hi1 n
    have e' := (IntOp.cmpi_slt (x := ii n) (y := 500000#32)).mp e
    rwa [toInt_500000] at e'
  · have e := Host.reduce_andi_all _ _ _ _ _ hy0 n
    have e' := (IntOp.cmpi_sge (x := y n) (y := 0#32)).mp e
    rwa [toInt_zero32] at e'
  · have e := Host.reduce_andi_all _ _ _ _ _ hy1 n
    have e' := (IntOp.cmpi_slt (x := y n) (y := 16#32)).mp e
    rwa [toInt_16] at e'

end Cert.PreFacts

end
-- ==== Proof.Final.lean ====
/-
  The kernel program's two results are the reference's.

  Both are read at an index.  The kernel's first result at (i, k) is the softmax of row i of its table D, which holds the
  class-dependent sums; the reference's is the softmax of row i of its table, which holds the full log-likelihood sums.
  Under the precondition (real logits, task ids and labels in range) the reference's row is the kernel's row shifted by
  the class-independent sum B_i, so the two softmaxes agree, and the reference's  Σ q·cll − Σ q·log q  is the kernel's
  B_i + Σ q·(D − log q).
-/
import proofs.«142230_j22256520528420_2_alg».proof.Proof.KerRun
import proofs.«142230_j22256520528420_2_alg».proof.Proof.KerPrefix
import proofs.«142230_j22256520528420_2_alg».proof.Proof.RefRow
import proofs.«142230_j22256520528420_2_alg».proof.Proof.RefCll
import proofs.«142230_j22256520528420_2_alg».proof.Proof.Bridge
import proofs.«142230_j22256520528420_2_alg».proof.Proof.PreFacts
import proofs.«142230_j22256520528420_2_alg».proof.Proof.Gen.Pre_finite_inputs

noncomputable section

namespace Cert.Final

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- Row i < 500000 of the kernel's table, as found by the region, is task i's class-dependent sums. -/
theorem row_eq (i : Fin 500000) (hi : i.val < 503808) :
    KerArrays.rowOf (V m c main_v45) ⟨i.val, hi⟩ = fun k' => Spec.Dsum (m ((c.tc : Thread nD τ).loc main_arg0)) (m ((c.tc : Thread nD τ).loc main_arg1)) (m ((c.tc : Thread nD τ).loc main_arg2)) (m ((c.tc : Thread nD τ).loc main_arg3)) i k' :=
  funext fun k' => KerPrefix.D_row m c ⟨i.val, hi⟩ i.isLt k'

set_option maxHeartbeats 1000000 in
/-- The kernel's first result is the reference's first stage of the same arguments. -/
theorem out0_eq
    (hp : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = (fun _ => 1#1)) :
    extractStridedSlice S500000x16 ![0, 0] (KerArrays.G2 (V m c main_v45)) slices_S503808x16_S500000x16_0_0
      = Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) := by
  obtain ⟨hx, hii, hy⟩ := PreFacts.decode _ _ _ _ hp
  refine funext fun (j : S500000x16.Idx) => ?_
  obtain ⟨i, k, rfl⟩ : ∃ (i : Fin 500000) (k : Fin 16), j = ix2 i k := ⟨j 0, j 1, eq_ix2 j⟩
  have hi : i.val < 503808 := by have := i.isLt; omega
  rw [extractStridedSlice_apply ![0, 0] (KerArrays.G2 (V m c main_v45)) slices_S503808x16_S500000x16_0_0 (ix2 i k)
    (ix2 (⟨i.val, hi⟩ : Fin 503808) k)
    (fun a => by
      match a with
      | ⟨0, _⟩ => show i.val = 0 + i.val; omega
      | ⟨1, _⟩ => show k.val = 0 + k.val; omega)]
  show Spec.qz (KerArrays.rowOf (V m c main_v45) ⟨i.val, hi⟩) k = _
  rw [row_eq m c i hi, Cert.RefRow.out0_apply]
  simp only [Cert.RefCll.cll_apply]
  exact (Cert.Bridge.qz_eq _ _ _ _ hx hii hy i k).symm

set_option maxHeartbeats 1000000 in
/-- The kernel's second result is the reference's second stage of the same arguments. -/
theorem out1_eq
    (hp : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = (fun _ => 1#1)) :
    extractStridedSlice S500000 ![0] (KerArrays.G3 (V m c main_v45) (V m c main_v46)) slices_S503808_S500000_0
      = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) := by
  obtain ⟨hx, hii, hy⟩ := PreFacts.decode _ _ _ _ hp
  refine funext fun (j : S500000.Idx) => ?_
  obtain ⟨i, rfl⟩ : ∃ i : Fin 500000, j = ix1 i := ⟨j 0, eq_ix1 j⟩
  have hi : i.val < 503808 := by have := i.isLt; omega
  rw [extractStridedSlice_apply ![0] (KerArrays.G3 (V m c main_v45) (V m c main_v46)) slices_S503808_S500000_0 (ix1 i)
    (ix1 (⟨i.val, hi⟩ : Fin 503808))
    (fun a => by
      match a with
      | ⟨0, _⟩ => show i.val = 0 + i.val; omega)]
  show Spec.vqKer (V m c main_v46 (ix1 ⟨i.val, hi⟩)) (KerArrays.rowOf (V m c main_v45) ⟨i.val, hi⟩) = _
  rw [row_eq m c i hi, KerPrefix.B_row m c ⟨i.val, hi⟩ i.isLt, Cert.RefRow.out1_apply]
  simp only [Cert.RefCll.cll_apply]
  exact (Cert.Bridge.vq_eq _ _ _ _ hx hii hy i).symm

end Cert.Final

end
-- ==== Proof.lean ====
/-
  Per-task posterior and variational value of a crowd-labelling model: the kernel program against its plain reference,
  at the exact extended reals.

  Worker j has logit x_j; σ = 1/(1+e^{-x}), ν = 1/(1+e^{x}).  The reference builds each worker's 16×16 confusion matrix
  (σ·I + ν/16)/2, normalises its rows, takes logs, gathers for every observation the row of its worker at its label, and
  scatter-adds those rows into the task's log-likelihood row cll_i; the results are softmax(cll_i) and
  Σ q·cll − Σ q·log q.  The kernel program uses that a normalised row is log(ν/16) off the diagonal and log(σ + ν/16) on
  it: it scatter-adds the class-independent part into B_i and the diagonal excess into D_{i,k} (at the flat index
  16·ii + y), pads both to a multiple of 4096 rows, and a kernel computes softmax(D_i) and B_i + Σ q·(D − log q) block by
  block; the first 500000 rows are the results.  With real logits, task ids in [0, 500000) and labels in [0, 16) the row
  cll_i is B_i + D_i, the softmax does not see the shift B_i, and Σ q = 1 turns the one value into the other.

  The frames of the two kernel programs are the generated ones; the reference's frame is its run with the results
  dropped.  No operation of the kernel was rewritten for the ideal reading, so that conjunct is trivial.
-/
import proofs.«142230_j22256520528420_2_alg».proof.Defs
import proofs.«142230_j22256520528420_2_alg».proof.Proof.Gen.Kernel
import proofs.«142230_j22256520528420_2_alg».proof.Proof.Gen.Kernel.Skeleton
import proofs.«142230_j22256520528420_2_alg».proof.Proof.Gen.Kernel.Launch
import proofs.«142230_j22256520528420_2_alg».proof.Proof.Gen.Kernel.Points
import proofs.«142230_j22256520528420_2_alg».proof.Proof.Gen.Kernel.Frame
import proofs.«142230_j22256520528420_2_alg».proof.Proof.Gen.KernelIdeal
import proofs.«142230_j22256520528420_2_alg».proof.Proof.Gen.KernelIdeal.Skeleton
import proofs.«142230_j22256520528420_2_alg».proof.Proof.Gen.KernelIdeal.Launch
import proofs.«142230_j22256520528420_2_alg».proof.Proof.Gen.KernelIdeal.Points
import proofs.«142230_j22256520528420_2_alg».proof.Proof.Gen.KernelIdeal.Frame
import proofs.«142230_j22256520528420_2_alg».proof.Proof.Gen.ReferenceIdeal
import proofs.«142230_j22256520528420_2_alg».proof.Proof.Gen.Pre_finite_inputs
import proofs.«142230_j22256520528420_2_alg».proof.Proof.RefRun
import proofs.«142230_j22256520528420_2_alg».proof.Proof.Final
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference terminates and keeps its arguments: its run, with the two results dropped. -/
theorem frame_ri : Cert.frame_ReferenceIdeal := fun m ρ _ =>
  (θ_run Cert.ReferenceIdeal.defs _ _).mono (fun _ h c => (h c).2.2) (Cert.RefRun.run m ρ)

/-- Run from memories agreeing on the arguments, the two programs end with equal results. -/
theorem algebraic : Cert.algebraic_KernelIdeal_ReferenceIdeal := by
  intro m ρ m' ρ' hpre hagree
  refine ⟨fun c => Cert.ReferenceIdeal.ReadP.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.ReadP.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ?_) (Cert.KerRun.run m ρ)
    obtain ⟨h48, h49, h0, h1, h2, h3⟩ := h c
    exact ⟨h48.trans (Cert.Final.out0_eq m c (hpre c)), h49.trans (Cert.Final.out1_eq m c (hpre c)), h0, h1, h2, h3⟩
  · refine (θ_run Cert.ReferenceIdeal.defs _ _).mono (fun _ h c => ?_) (Cert.RefRun.run m' ρ')
    obtain ⟨h56, h61, h0, h1, h2, h3⟩ := h c
    obtain ⟨a0, a1, a2, a3⟩ := hagree c
    refine ⟨h56.trans ?_, h61.trans ?_, h0, h1, h2, h3⟩
    · rw [a0, a1, a2, a3]
    · rw [a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
